-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S1024x256 : Shape := ⟨2, ![1024, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S256x1024 : S_.BroadcastsInDim S256x1024 (![] : Fin 0 → Fin S256x1024.rank)
  reducesTo_S256x1024_S_d0_1 : S256x1024.ReducesTo [0, 1] S_

variable [Facts]

def fn_part8 {F : FTy → Type} [FloatOps F] (main_v133 : IVec S_ 1) (main_v136 : IVec S256x1024 1) : IVec S_ 1 :=
  let main_c_53 : IVec S_ 1 := constantI S_ 1 1#1
  let main_v137 : IVec S_ 1 := (fun x v => Host.reduce IntOp.andi x v reducesTo_S256x1024_S_d0_1 h_S_) main_v136 main_c_53
  let main_v138 : IVec S_ 1 := andi main_v133 main_v137
  main_v138

def fn_part7 {F : FTy → Type} [FloatOps F] (main_arg25 : FVec F S1024x1024 .f32) (main_arg26 : FVec F S1024 .f32) (main_arg27 : FVec F S256x1024 .f32) (main_v118 : IVec S_ 1) (main_v119 : FVec F S1024x256 .f32) : IVec S_ 1 :=
  let main_cst_46 : FVec F S_ .f32 := constant S_ .f32 0x7F800000#32
  let main_v120 : FVec F S1024x256 .f32 := broadcastInDim S1024x256 ![] bcast_S_S1024x256 main_cst_46
  let main_v121 : IVec S1024x256 1 := cmpf .olt main_v119 main_v120
  let main_c_47 : IVec S_ 1 := constantI S_ 1 1#1
  let main_v122 : IVec S_ 1 := (fun x v => Host.reduce IntOp.andi x v reducesTo_S1024x256_S_d0_1 h_S_) main_v121 main_c_47
  let main_v123 : IVec S_ 1 := andi main_v118 main_v122
  let main_v124 : FVec F S1024x1024 .f32 := Host.absf main_arg25
  let main_cst_48 : FVec F S_ .f32 := constant S_ .f32 0x7F800000#32
  let main_v125 : FVec F S1024x1024 .f32 := broadcastInDim S1024x1024 ![] bcast_S_S1024x1024 main_cst_48
  let main_v126 : IVec S1024x1024 1 := cmpf .olt main_v124 main_v125
  let main_c_49 : IVec S_ 1 := constantI S_ 1 1#1
  let main_v127 : IVec S_ 1 := (fun x v => Host.reduce IntOp.andi x v reducesTo_S1024x1024_S_d0_1 h_S_) main_v126 main_c_49
  let main_v128 : IVec S_ 1 := andi main_v123 main_v127
  let main_v129 : FVec F S1024 .f32 := Host.absf main_arg26
  let main_cst_50 : FVec F S_ .f32 := constant S_ .f32 0x7F800000#32
  let main_v130 : FVec F S1024 .f32 := broadcastInDim S1024 ![] bcast_S_S1024 main_cst_50
  let main_v131 : IVec S1024 1 := cmpf .olt main_v129 main_v130
  let main_c_51 : IVec S_ 1 := constantI S_ 1 1#1
  let main_v132 : IVec S_ 1 := (fun x v => Host.reduce IntOp.andi x v reducesTo_S1024_S_d0 h_S_) main_v131 main_c_51
  let main_v133 : IVec S_ 1 := andi main_v128 main_v132
  let main_v134 : FVec F S256x1024 .f32 := Host.absf main_arg27
  let main_cst_52 : FVec F S_ .f32 := constant S_ .f32 0x7F800000#32
  let main_v135 : FVec F S256x1024 .f32 := broadcastInDim S256x1024 ![] bcast_S_S256x1024 main_cst_52
  let main_v136 : IVec S256x1024 1 := cmpf .olt main_v134 main_v135
  fn_part8 (F := F) main_v133 main_v136

def fn_part6 {F : FTy → Type} [FloatOps F] (main_arg21 : FVec F S1024x256 .f32) (main_arg22 : FVec F S1024x1024 .f32) (main_arg23 : FVec F S1024 .f32) (main_arg24 : FVec F S1024x256 .f32) (main_arg25 : FVec F S1024x1024 .f32) (main_arg26 : FVec F S1024 .f32) (main_arg27 : FVec F S256x1024 .f32) (main_v98 : IVec S_ 1) (main_v101 : IVec S1024 1) (main_c_39 : IVec S_ 1) : IVec S_ 1 :=
  let main_v102 : IVec S_ 1 := (fun x v => Host.reduce IntOp.andi x v reducesTo_S1024_S_d0 h_S_) main_v101 main_c_39
  let main_v103 : IVec S_ 1 := andi main_v98 main_v102
  let main_v104 : FVec F S1024x256 .f32 := Host.absf main_arg21
  let main_cst_40 : FVec F S_ .f32 := constant S_ .f32 0x7F800000#32
  let main_v105 : FVec F S1024x256 .f32 := broadcastInDim S1024x256 ![] bcast_S_S1024x256 main_cst_40
  let main_v106 : IVec S1024x256 1 := cmpf .olt main_v104 main_v105
  let main_c_41 : IVec S_ 1 := constantI S_ 1 1#1
  let main_v107 : IVec S_ 1 := (fun x v => Host.reduce IntOp.andi x v reducesTo_S1024x256_S_d0_1 h_S_) main_v106 main_c_41
  let main_v108 : IVec S_ 1 := andi main_v103 main_v107
  let main_v109 : FVec F S1024x1024 .f32 := Host.absf main_arg22
  let main_cst_42 : FVec F S_ .f32 := constant S_ .f32 0x7F800000#32
  let main_v110 : FVec F S1024x1024 .f32 := broadcastInDim S1024x1024 ![] bcast_S_S1024x1024 main_cst_42
  let main_v111 : IVec S1024x1024 1 := cmpf .olt main_v109 main_v110
  let main_c_43 : IVec S_ 1 := constantI S_ 1 1#1
  let main_v112 : IVec S_ 1 := (fun x v => Host.reduce IntOp.andi x v reducesTo_S1024x1024_S_d0_1 h_S_) main_v111 main_c_43
  let main_v113 : IVec S_ 1 := andi main_v108 main_v112
  let main_v114 : FVec F S1024 .f32 := Host.absf main_arg23
  let main_cst_44 : FVec F S_ .f32 := constant S_ .f32 0x7F800000#32
  let main_v115 : FVec F S1024 .f32 := broadcastInDim S1024 ![] bcast_S_S1024 main_cst_44
  let main_v116 : IVec S1024 1 := cmpf .olt main_v114 main_v115
  let main_c_45 : IVec S_ 1 := constantI S_ 1 1#1
  let main_v117 : IVec S_ 1 := (fun x v => Host.reduce IntOp.andi x v reducesTo_S1024_S_d0 h_S_) main_v116 main_c_45
  let main_v118 : IVec S_ 1 := andi main_v113 main_v117
  let main_v119 : FVec F S1024x256 .f32 := Host.absf main_arg24
  fn_part7 (F := F) main_arg25 main_arg26 main_arg27 main_v118 main_v119

def fn_part5 {F : FTy → Type} [FloatOps F] (main_arg18 : FVec F S1024x256 .f32) (main_arg19 : FVec F S1024x1024 .f32) (main_arg20 : FVec F S1024 .f32) (main_arg21 : FVec F S1024x256 .f32) (main_arg22 : FVec F S1024x1024 .f32) (main_arg23 : FVec F S1024 .f32) (main_arg24 : FVec F S1024x256 .f32) (main_arg25 : FVec F S1024x1024 .f32) (main_arg26 : FVec F S1024 .f32) (main_arg27 : FVec F S256x1024 .f32) (main_v83 : IVec S_ 1) (main_v84 : FVec F S1024 .f32) (main_cst_32 : FVec F S_ .f32) : IVec S_ 1 :=
  let main_v85 : FVec F S1024 .f32 := broadcastInDim S1024 ![] bcast_S_S1024 main_cst_32
  let main_v86 : IVec S1024 1 := cmpf .olt main_v84 main_v85
  let main_c_33 : IVec S_ 1 := constantI S_ 1 1#1
  let main_v87 : IVec S_ 1 := (fun x v => Host.reduce IntOp.andi x v reducesTo_S1024_S_d0 h_S_) main_v86 main_c_33
  let main_v88 : IVec S_ 1 := andi main_v83 main_v87
  let main_v89 : FVec F S1024x256 .f32 := Host.absf main_arg18
  let main_cst_34 : FVec F S_ .f32 := constant S_ .f32 0x7F800000#32
  let main_v90 : FVec F S1024x256 .f32 := broadcastInDim S1024x256 ![] bcast_S_S1024x256 main_cst_34
  let main_v91 : IVec S1024x256 1 := cmpf .olt main_v89 main_v90
  let main_c_35 : IVec S_ 1 := constantI S_ 1 1#1
  let main_v92 : IVec S_ 1 := (fun x v => Host.reduce IntOp.andi x v reducesTo_S1024x256_S_d0_1 h_S_) main_v91 main_c_35
  let main_v93 : IVec S_ 1 := andi main_v88 main_v92
  let main_v94 : FVec F S1024x1024 .f32 := Host.absf main_arg19
  let main_cst_36 : FVec F S_ .f32 := constant S_ .f32 0x7F800000#32
  let main_v95 : FVec F S1024x1024 .f32 := broadcastInDim S1024x1024 ![] bcast_S_S1024x1024 main_cst_36
  let main_v96 : IVec S1024x1024 1 := cmpf .olt main_v94 main_v95
  let main_c_37 : IVec S_ 1 := constantI S_ 1 1#1
  let main_v97 : IVec S_ 1 := (fun x v => Host.reduce IntOp.andi x v reducesTo_S1024x1024_S_d0_1 h_S_) main_v96 main_c_37
  let main_v98 : IVec S_ 1 := andi main_v93 main_v97
  let main_v99 : FVec F S1024 .f32 := Host.absf main_arg20
  let main_cst_38 : FVec F S_ .f32 := constant S_ .f32 0x7F800000#32
  let main_v100 : FVec F S1024 .f32 := broadcastInDim S1024 ![] bcast_S_S1024 main_cst_38
  let main_v101 : IVec S1024 1 := cmpf .olt main_v99 main_v100
  let main_c_39 : IVec S_ 1 := constantI S_ 1 1#1
  fn_part6 (F := F) main_arg21 main_arg22 main_arg23 main_arg24 main_arg25 main_arg26 main_arg27 main_v98 main_v101 main_c_39

def fn_part4 {F : FTy → Type} [FloatOps F] (main_arg14 : FVec F S1024 .f32) (main_arg15 : FVec F S1024x256 .f32) (main_arg16 : FVec F S1024x1024 .f32) (main_arg17 : FVec F S1024 .f32) (main_arg18 : FVec F S1024x256 .f32) (main_arg19 : FVec F S1024x1024 .f32) (main_arg20 : FVec F S1024 .f32) (main_arg21 : FVec F S1024x256 .f32) (main_arg22 : FVec F S1024x1024 .f32) (main_arg23 : FVec F S1024 .f32) (main_arg24 : FVec F S1024x256 .f32) (main_arg25 : FVec F S1024x1024 .f32) (main_arg26 : FVec F S1024 .f32) (main_arg27 : FVec F S256x1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x256 .f32 := Host.absf main_arg15
  let main_cst_28 : FVec F S_ .f32 := constant S_ .f32 0x7F800000#32
  let main_v75 : FVec F S1024x256 .f32 := broadcastInDim S1024x256 ![] bcast_S_S1024x256 main_cst_28
  let main_v76 : IVec S1024x256 1 := cmpf .olt main_v74 main_v75
  let main_c_29 : IVec S_ 1 := constantI S_ 1 1#1
  let main_v77 : IVec S_ 1 := (fun x v => Host.reduce IntOp.andi x v reducesTo_S1024x256_S_d0_1 h_S_) main_v76 main_c_29
  let main_v78 : IVec S_ 1 := andi main_v73 main_v77
  let main_v79 : FVec F S1024x1024 .f32 := Host.absf main_arg16
  let main_cst_30 : FVec F S_ .f32 := constant S_ .f32 0x7F800000#32
  let main_v80 : FVec F S1024x1024 .f32 := broadcastInDim S1024x1024 ![] bcast_S_S1024x1024 main_cst_30
  let main_v81 : IVec S1024x1024 1 := cmpf .olt main_v79 main_v80
  let main_c_31 : IVec S_ 1 := constantI S_ 1 1#1
  let main_v82 : IVec S_ 1 := (fun x v => Host.reduce IntOp.andi x v reducesTo_S1024x1024_S_d0_1 h_S_) main_v81 main_c_31
  let main_v83 : IVec S_ 1 := andi main_v78 main_v82
  let main_v84 : FVec F S1024 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_v83 main_v84 main_cst_32

def fn_part3 {F : FTy → Type} [FloatOps F] (main_arg11 : FVec F S1024 .f32) (main_arg12 : FVec F S1024x256 .f32) (main_arg13 : FVec F S1024x1024 .f32) (main_arg14 : FVec F S1024 .f32) (main_arg15 : FVec F S1024x256 .f32) (main_arg16 : FVec F S1024x1024 .f32) (main_arg17 : FVec F S1024 .f32) (main_arg18 : FVec F S1024x256 .f32) (main_arg19 : FVec F S1024x1024 .f32) (main_arg20 : FVec F S1024 .f32) (main_arg21 : FVec F S1024x256 .f32) (main_arg22 : FVec F S1024x1024 .f32) (main_arg23 : FVec F S1024 .f32) (main_arg24 : FVec F S1024x256 .f32) (main_arg25 : FVec F S1024x1024 .f32) (main_arg26 : FVec F S1024 .f32) (main_arg27 : FVec F S256x1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x256 .f32 := Host.absf main_arg12
  let main_cst_22 : FVec F S_ .f32 := constant S_ .f32 0x7F800000#32
  let main_v60 : FVec F S1024x256 .f32 := broadcastInDim S1024x256 ![] bcast_S_S1024x256 main_cst_22
  let main_v61 : IVec S1024x256 1 := cmpf .olt main_v59 main_v60
  let main_c_23 : IVec S_ 1 := constantI S_ 1 1#1
  let main_v62 : IVec S_ 1 := (fun x v => Host.reduce IntOp.andi x v reducesTo_S1024x256_S_d0_1 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_arg16 main_arg17 main_arg18 main_arg19 main_arg20 main_arg21 main_arg22 main_arg23 main_arg24 main_arg25 main_arg26 main_arg27 main_v63 main_v67

def fn_part2 {F : FTy → Type} [FloatOps F] (main_arg7 : FVec F S1024x1024 .f32) (main_arg8 : FVec F S1024 .f32) (main_arg9 : FVec F S1024x256 .f32) (main_arg10 : FVec F S1024x1024 .f32) (main_arg11 : FVec F S1024 .f32) (main_arg12 : FVec F S1024x256 .f32) (main_arg13 : FVec F S1024x1024 .f32) (main_arg14 : FVec F S1024 .f32) (main_arg15 : FVec F S1024x256 .f32) (main_arg16 : FVec F S1024x1024 .f32) (main_arg17 : FVec F S1024 .f32) (main_arg18 : FVec F S1024x256 .f32) (main_arg19 : FVec F S1024x1024 .f32) (main_arg20 : FVec F S1024 .f32) (main_arg21 : FVec F S1024x256 .f32) (main_arg22 : FVec F S1024x1024 .f32) (main_arg23 : FVec F S1024 .f32) (main_arg24 : FVec F S1024x256 .f32) (main_arg25 : FVec F S1024x1024 .f32) (main_arg26 : FVec F S1024 .f32) (main_arg27 : FVec F S256x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x256 .f32 := Host.absf main_arg9
  let main_cst_16 : FVec F S_ .f32 := constant S_ .f32 0x7F800000#32
  let main_v45 : FVec F S1024x256 .f32 := broadcastInDim S1024x256 ![] bcast_S_S1024x256 main_cst_16
  let main_v46 : IVec S1024x256 1 := cmpf .olt main_v44 main_v45
  let main_c_17 : IVec S_ 1 := constantI S_ 1 1#1
  let main_v47 : IVec S_ 1 := (fun x v => Host.reduce IntOp.andi x v reducesTo_S1024x256_S_d0_1 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_arg14 main_arg15 main_arg16 main_arg17 main_arg18 main_arg19 main_arg20 main_arg21 main_arg22 main_arg23 main_arg24 main_arg25 main_arg26 main_arg27 main_v48 main_v49 main_v50

def fn_part1 {F : FTy → Type} [FloatOps F] (main_arg4 : FVec F S1024x1024 .f32) (main_arg5 : FVec F S1024 .f32) (main_arg6 : FVec F S1024x256 .f32) (main_arg7 : FVec F S1024x1024 .f32) (main_arg8 : FVec F S1024 .f32) (main_arg9 : FVec F S1024x256 .f32) (main_arg10 : FVec F S1024x1024 .f32) (main_arg11 : FVec F S1024 .f32) (main_arg12 : FVec F S1024x256 .f32) (main_arg13 : FVec F S1024x1024 .f32) (main_arg14 : FVec F S1024 .f32) (main_arg15 : FVec F S1024x256 .f32) (main_arg16 : FVec F S1024x1024 .f32) (main_arg17 : FVec F S1024 .f32) (main_arg18 : FVec F S1024x256 .f32) (main_arg19 : FVec F S1024x1024 .f32) (main_arg20 : FVec F S1024 .f32) (main_arg21 : FVec F S1024x256 .f32) (main_arg22 : FVec F S1024x1024 .f32) (main_arg23 : FVec F S1024 .f32) (main_arg24 : FVec F S1024x256 .f32) (main_arg25 : FVec F S1024x1024 .f32) (main_arg26 : FVec F S1024 .f32) (main_arg27 : FVec F S256x1024 .f32) (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x256 .f32 := Host.absf main_arg6
  let main_cst_10 : FVec F S_ .f32 := constant S_ .f32 0x7F800000#32
  let main_v30 : FVec F S1024x256 .f32 := broadcastInDim S1024x256 ![] bcast_S_S1024x256 main_cst_10
  let main_v31 : IVec S1024x256 1 := cmpf .olt main_v29 main_v30
  let main_c_11 : IVec S_ 1 := constantI S_ 1 1#1
  let main_v32 : IVec S_ 1 := (fun x v => Host.reduce IntOp.andi x v reducesTo_S1024x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v33

def fn {F : FTy → Type} [FloatOps F] (main_arg0 : FVec F S16384x256 .f32) (main_arg1 : FVec F S1024x256 .f32) (main_arg2 : FVec F S1024 .f32) (main_arg3 : FVec F S1024x256 .f32) (main_arg4 : FVec F S1024x1024 .f32) (main_arg5 : FVec F S1024 .f32) (main_arg6 : FVec F S1024x256 .f32) (main_arg7 : FVec F S1024x1024 .f32) (main_arg8 : FVec F S1024 .f32) (main_arg9 : FVec F S1024x256 .f32) (main_arg10 : FVec F S1024x1024 .f32) (main_arg11 : FVec F S1024 .f32) (main_arg12 : FVec F S1024x256 .f32) (main_arg13 : FVec F S1024x1024 .f32) (main_arg14 : FVec F S1024 .f32) (main_arg15 : FVec F S1024x256 .f32) (main_arg16 : FVec F S1024x1024 .f32) (main_arg17 : FVec F S1024 .f32) (main_arg18 : FVec F S1024x256 .f32) (main_arg19 : FVec F S1024x1024 .f32) (main_arg20 : FVec F S1024 .f32) (main_arg21 : FVec F S1024x256 .f32) (main_arg22 : FVec F S1024x1024 .f32) (main_arg23 : FVec F S1024 .f32) (main_arg24 : FVec F S1024x256 .f32) (main_arg25 : FVec F S1024x1024 .f32) (main_arg26 : FVec F S1024 .f32) (main_arg27 : FVec F S256x1024 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x256 .f32 := Host.absf main_arg3
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S16384x256 : Shape := ⟨2, ![16384, 256]⟩
abbrev S1024x256 : Shape := ⟨2, ![1024, 256]⟩
abbrev S1024 : Shape := ⟨1, ![1024]⟩
abbrev S1024x1024 : Shape := ⟨2, ![1024, 1024]⟩
abbrev S256x1024 : Shape := ⟨2, ![256, 1024]⟩
abbrev S256x3072 : Shape := ⟨2, ![256, 3072]⟩
abbrev S1024x3072 : Shape := ⟨2, ![1024, 3072]⟩
abbrev S3072 : Shape := ⟨1, ![3072]⟩
abbrev S1x3072 : Shape := ⟨2, ![1, 3072]⟩
abbrev S1x1024 : Shape := ⟨2, ![1, 1024]⟩
abbrev S512x256 : Shape := ⟨2, ![512, 256]⟩
abbrev S512x1024 : Shape := ⟨2, ![512, 1024]⟩
abbrev S512x3072 : Shape := ⟨2, ![512, 3072]⟩

abbrev nBuf : Space → Nat
  | .hbm => 55
  | .vmem => 13
  | .smem => 0
  | _ => 0

abbrev bufTy : (tb : Table) → Fin (tcTables nBuf tb) → BufTy
  | .hbm, ⟨0, _⟩ => ⟨S16384x256, .f32⟩
  | .hbm, ⟨1, _⟩ => ⟨S1024x256, .f32⟩
  | .hbm, ⟨2, _⟩ => ⟨S1024, .f32⟩
  | .hbm, ⟨3, _⟩ => ⟨S1024x256, .f32⟩
  | .hbm, ⟨4, _⟩ => ⟨S1024x1024, .f32⟩
  | .hbm, ⟨5, _⟩ => ⟨S1024, .f32⟩
  | .hbm, ⟨6, _⟩ => ⟨S1024x256, .f32⟩
  | .hbm, ⟨7, _⟩ => ⟨S1024x1024, .f32⟩
  | .hbm, ⟨8, _⟩ => ⟨S1024, .f32⟩
  | .hbm, ⟨9, _⟩ => ⟨S1024x256, .f32⟩
  | .hbm, ⟨10, _⟩ => ⟨S1024x1024, .f32⟩
  | .hbm, ⟨11, _⟩ => ⟨S1024, .f32⟩
  | .hbm, ⟨12, _⟩ => ⟨S1024x256, .f32⟩
  | .hbm, ⟨13, _⟩ => ⟨S1024x1024, .f32⟩
  | .hbm, ⟨14, _⟩ => ⟨S1024, .f32⟩
  | .hbm, ⟨15, _⟩ => ⟨S1024x256, .f32⟩
  | .hbm, ⟨16, _⟩ => ⟨S1024x1024, .f32⟩
  | .hbm, ⟨17, _⟩ => ⟨S1024, .f32⟩
  | .hbm, ⟨18, _⟩ => ⟨S1024x256, .f32⟩
  | .hbm, ⟨19, _⟩ => ⟨S1024x1024, .f32⟩
  | .hbm, ⟨20, _⟩ => ⟨S1024, .f32⟩
  | .hbm, ⟨21, _⟩ => ⟨S1024x256, .f32⟩
  | .hbm, ⟨22, _⟩ => ⟨S1024x1024, .f32⟩
  | .hbm, ⟨23, _⟩ => ⟨S1024, .f32⟩
  | .hbm, ⟨24, _⟩ => ⟨S1024x256, .f32⟩
  | .hbm, ⟨25, _⟩ => ⟨S1024x1024, .f32⟩
  | .hbm, ⟨26, _⟩ => ⟨S1024, .f32⟩
  | .hbm, ⟨27, _⟩ => ⟨S256x1024, .f32⟩
  | .hbm, ⟨28, _⟩ => ⟨S1024x256, .bf16⟩
  | .hbm, ⟨29, _⟩ => ⟨S256x1024, .bf16⟩
  | .hbm, ⟨30, _⟩ => ⟨S1024x256, .bf16⟩
  | .hbm, ⟨31, _⟩ => ⟨S256x1024, .bf16⟩
  | .hbm, ⟨32, _⟩ => ⟨S1024x1024, .bf16⟩
  | .hbm, ⟨33, _⟩ => ⟨S1024x1024, .bf16⟩
  | .hbm, ⟨34, _⟩ => ⟨S256x1024, .bf16⟩
  | .hbm, ⟨35, _⟩ => ⟨S1024x256, .bf16⟩
  | .hbm, ⟨36, _⟩ => ⟨S1024x256, .bf16⟩
  | .hbm, ⟨37, _⟩ => ⟨S256x1024, .bf16⟩
  | .hbm, ⟨38, _⟩ => ⟨S1024x256, .bf16⟩
  | .hbm, ⟨39, _⟩ => ⟨S256x1024, .bf16⟩
  | .hbm, ⟨40, _⟩ => ⟨S1024x256, .bf16⟩
  | .hbm, ⟨41, _⟩ => ⟨S256x1024, .bf16⟩
  | .hbm, ⟨42, _⟩ => ⟨S256x3072, .bf16⟩
  | .hbm, ⟨43, _⟩ => ⟨S1024x1024, .bf16⟩
  | .hbm, ⟨44, _⟩ => ⟨S1024x1024, .bf16⟩
  | .hbm, ⟨45, _⟩ => ⟨S1024x1024, .bf16⟩
  | .hbm, ⟨46, _⟩ => ⟨S1024x1024, .bf16⟩
  | .hbm, ⟨47, _⟩ => ⟨S1024x1024, .bf16⟩
  | .hbm, ⟨48, _⟩ => ⟨S1024x1024, .bf16⟩
  | .hbm, ⟨49, _⟩ => ⟨S1024x3072, .bf16⟩
  | .hbm, ⟨50, _⟩ => ⟨S3072, .f32⟩
  | .hbm, ⟨51, _⟩ => ⟨S1x3072, .f32⟩
  | .hbm, ⟨52, _⟩ => ⟨S1x1024, .f32⟩
  | .hbm, ⟨53, _⟩ => ⟨S1x1024, .f32⟩
  | .hbm, ⟨54, _⟩ => ⟨S16384x256, .f32⟩
  | .local _ .vmem, ⟨0, _⟩ => ⟨S512x256, .f32⟩
  | .local _ .vmem, ⟨1, _⟩ => ⟨S512x256, .f32⟩
  | .local _ .vmem, ⟨2, _⟩ => ⟨S256x1024, .bf16⟩
  | .local _ .vmem, ⟨3, _⟩ => ⟨S1x1024, .f32⟩
  | .local _ .vmem, ⟨4, _⟩ => ⟨S256x3072, .bf16⟩
  | .local _ .vmem, ⟨5, _⟩ => ⟨S1024x3072, .bf16⟩
  | .local _ .vmem, ⟨6, _⟩ => ⟨S1x3072, .f32⟩
  | .local _ .vmem, ⟨7, _⟩ => ⟨S256x1024, .bf16⟩
  | .local _ .vmem, ⟨8, _⟩ => ⟨S1024x1024, .bf16⟩
  | .local _ .vmem, ⟨9, _⟩ => ⟨S1x1024, .f32⟩
  | .local _ .vmem, ⟨10, _⟩ => ⟨S1024x256, .bf16⟩
  | .local _ .vmem, ⟨11, _⟩ => ⟨S512x256, .f32⟩
  | .local _ .vmem, ⟨12, _⟩ => ⟨S512x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bitsLt_bf16_f32 : FTy.bits .bf16 < FTy.bits .f32
  transposes_S1024x256_S256x1024_1_0 : S1024x256.Transposes [1, 0] S256x1024
  transposes_S1024x1024_S1024x1024_1_0 : S1024x1024.Transposes [1, 0] S1024x1024
  transposes_S256x1024_S1024x256_1_0 : S256x1024.Transposes [1, 0] S1024x256
  concatenates_S256x1024_S256x1024_S256x1024_S256x3072_d1 : Shape.Concatenates [S256x1024, S256x1024, S256x1024] S256x3072 1
  concatenates_S1024x1024_S1024x1024_S1024x1024_S1024x3072_d1 : Shape.Concatenates [S1024x1024, S1024x1024, S1024x1024] S1024x3072 1
  concatenates_S1024_S1024_S1024_S3072_d0 : Shape.Concatenates [S1024, S1024, S1024] S3072 0
  shapeCasts_S3072_S1x3072 : S3072.ShapeCasts S1x3072
  shapeCasts_S1024_S1x1024 : S1024.ShapeCasts S1x1024
  inb_S512x256_S512x256_0_0 : ∀ a, (![0, 0] : Fin 2 → Nat) a + S512x256.size a ≤ S512x256.size a
  h_S512x256 : 0 < S512x256.numel
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S256x3072_S256x3072_0_0 : ∀ a, (![0, 0] : Fin 2 → Nat) a + S256x3072.size a ≤ S256x3072.size a
  h_S256x3072 : 0 < S256x3072.numel
  shapeCasts_S256x3072_S256x3072 : S256x3072.ShapeCasts S256x3072
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  slices_S512x3072_o0_0_S512x1024 : S512x3072.Slices ![0, 0] S512x1024
  slices_S512x3072_o0_1024_S512x1024 : S512x3072.Slices ![0, 1024] S512x1024
  slices_S512x3072_o0_2048_S512x1024 : S512x3072.Slices ![0, 2048] S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  dot_S512x256_S256x1024_S512x1024_1_0_0_1_n_n_wf : DotDims.WF S512x256 S256x1024 S512x1024 [1] [0] [0] [1] [] []
  dot_S512x256_S256x3072_S512x3072_1_0_0_1_n_n_wf : DotDims.WF S512x256 S256x3072 S512x3072 [1] [0] [0] [1] [] []
  dot_S512x1024_S1024x3072_S512x3072_1_0_0_1_n_n_wf : DotDims.WF S512x1024 S1024x3072 S512x3072 [1] [0] [0] [1] [] []
  dot_S512x1024_S1024x1024_S512x1024_1_0_0_1_n_n_wf : DotDims.WF S512x1024 S1024x1024 S512x1024 [1] [0] [0] [1] [] []
  dot_S512x1024_S1024x256_S512x256_1_0_0_1_n_n_wf : DotDims.WF S512x1024 S1024x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S16384x256.size a
  hwx0_0 : ∀ i : grid0.Coords, EltTy.bits .f32 = 32 ∨ (Rect.block (s := S16384x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .bf16 = 32 ∨ (Rect.block (s := S256x1024) S256x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x3072.size a ≤ S256x3072.size a
  hwx0_3 : ∀ i : grid0.Coords, EltTy.bits .bf16 = 32 ∨ (Rect.block (s := S256x3072) S256x3072.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x3072.size a ≤ S1024x3072.size a
  hwx0_4 : ∀ i : grid0.Coords, EltTy.bits .bf16 = 32 ∨ (Rect.block (s := S1024x3072) S1024x3072.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x3072.size a ≤ S1x3072.size a
  hwx0_5 : ∀ i : grid0.Coords, EltTy.bits .f32 = 32 ∨ (Rect.block (s := S1x3072) S1x3072.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S256x1024.size a
  hwx0_6 : ∀ i : grid0.Coords, EltTy.bits .bf16 = 32 ∨ (Rect.block (s := S256x1024) S256x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x256.size a ≤ S1024x256.size a
  hwx0_9 : ∀ i : grid0.Coords, EltTy.bits .bf16 = 32 ∨ (Rect.block (s := S1024x256) S1024x256.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x256.size a ≤ S16384x256.size a
  hwx0_10 : ∀ i : grid0.Coords, EltTy.bits .f32 = 32 ∨ (Rect.block (s := S16384x256) S512x256.size (cc0_transform_10 i) (hinb0_10 i)).WholeWords (EltTy.packing .f32)

variable [Facts₀]

def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf
def dot_S512x256_S256x3072_S512x3072_1_0_0_1_n_n : DotDims S512x256 S256x3072 S512x3072 where
  lhsContracting := [1]
  rhsContracting := [0]
  lhsNonContracting := [0]
  rhsNonContracting := [1]
  lhsBatch := []
  rhsBatch := []
  wf := dot_S512x256_S256x3072_S512x3072_1_0_0_1_n_n_wf
def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S256x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1024x3072.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x3072.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S256x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v25) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S1024x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v26) S512x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S16384x256 : Shape := ⟨2, ![16384, 256]⟩
abbrev S1024x256 : Shape := ⟨2, ![1024, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S16384x1024 : Shape := ⟨2, ![16384, 1024]⟩
abbrev S1x1024 : Shape := ⟨2, ![1, 1024]⟩

abbrev nBuf : Space → Nat
  | .hbm => 83
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S1024x256, .f32⟩
  | .hbm, ⟨2, _⟩ => ⟨S1024, .f32⟩
  | .hbm, ⟨3, _⟩ => ⟨S1024x256, .f32⟩
  | .hbm, ⟨4, _⟩ => ⟨S1024x1024, .f32⟩
  | .hbm, ⟨5, _⟩ => ⟨S1024, .f32⟩
  | .hbm, ⟨6, _⟩ => ⟨S1024x256, .f32⟩
  | .hbm, ⟨7, _⟩ => ⟨S1024x1024, .f32⟩
  | .hbm, ⟨8, _⟩ => ⟨S1024, .f32⟩
  | .hbm, ⟨9, _⟩ => ⟨S1024x256, .f32⟩
  | .hbm, ⟨10, _⟩ => ⟨S1024x1024, .f32⟩
  | .hbm, ⟨11, _⟩ => ⟨S1024, .f32⟩
  | .hbm, ⟨12, _⟩ => ⟨S1024x256, .f32⟩
  | .hbm, ⟨13, _⟩ => ⟨S1024x1024, .f32⟩
  | .hbm, ⟨14, _⟩ => ⟨S1024, .f32⟩
  | .hbm, ⟨15, _⟩ => ⟨S1024x256, .f32⟩
  | .hbm, ⟨16, _⟩ => ⟨S1024x1024, .f32⟩
  | .hbm, ⟨17, _⟩ => ⟨S1024, .f32⟩
  | .hbm, ⟨18, _⟩ => ⟨S1024x256, .f32⟩
  | .hbm, ⟨19, _⟩ => ⟨S1024x1024, .f32⟩
  | .hbm, ⟨20, _⟩ => ⟨S1024, .f32⟩
  | .hbm, ⟨21, _⟩ => ⟨S1024x256, .f32⟩
  | .hbm, ⟨22, _⟩ => ⟨S1024x1024, .f32⟩
  | .hbm, ⟨23, _⟩ => ⟨S1024, .f32⟩
  | .hbm, ⟨24, _⟩ => ⟨S1024x256, .f32⟩
  | .hbm, ⟨25, _⟩ => ⟨S1024x1024, .f32⟩
  | .hbm, ⟨26, _⟩ => ⟨S1024, .f32⟩
  | .hbm, ⟨27, _⟩ => ⟨S256x1024, .f32⟩
  | .hbm, ⟨28, _⟩ => ⟨S16384x256, .f32⟩
  | .hbm, ⟨29, _⟩ => ⟨S_, .f32⟩
  | .hbm, ⟨30, _⟩ => ⟨S16384x256, .f32⟩
  | .hbm, ⟨31, _⟩ => ⟨S16384x256, .f32⟩
  | .hbm, ⟨32, _⟩ => ⟨S256x1024, .f32⟩
  | .hbm, ⟨33, _⟩ => ⟨S16384x1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S256x1024, .f32⟩
  | .hbm, ⟨39, _⟩ => ⟨S16384x1024, .f32⟩
  | .hbm, ⟨40, _⟩ => ⟨S1024x1024, .f32⟩
  | .hbm, ⟨41, _⟩ => ⟨S16384x1024, .f32⟩
  | .hbm, ⟨42, _⟩ => ⟨S1x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S256x1024, .f32⟩
  | .hbm, ⟨48, _⟩ => ⟨S16384x1024, .f32⟩
  | .hbm, ⟨49, _⟩ => ⟨S1024x1024, .f32⟩
  | .hbm, ⟨50, _⟩ => ⟨S16384x1024, .f32⟩
  | .hbm, ⟨51, _⟩ => ⟨S1x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S256x1024, .f32⟩
  | .hbm, ⟨57, _⟩ => ⟨S16384x1024, .f32⟩
  | .hbm, ⟨58, _⟩ => ⟨S1024x1024, .f32⟩
  | .hbm, ⟨59, _⟩ => ⟨S16384x1024, .f32⟩
  | .hbm, ⟨60, _⟩ => ⟨S1x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S256x1024, .f32⟩
  | .hbm, ⟨66, _⟩ => ⟨S16384x1024, .f32⟩
  | .hbm, ⟨67, _⟩ => ⟨S16384x1024, .f32⟩
  | .hbm, ⟨68, _⟩ => ⟨S1024x1024, .f32⟩
  | .hbm, ⟨69, _⟩ => ⟨S16384x1024, .f32⟩
  | .hbm, ⟨70, _⟩ => ⟨S1x1024, .f32⟩
  | .hbm, ⟨71, _⟩ => ⟨S16384x1024, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S_, .f32⟩
  | .hbm, ⟨76, _⟩ => ⟨S16384x1024, .f32⟩
  | .hbm, ⟨77, _⟩ => ⟨S16384x1024, .f32⟩
  | .hbm, ⟨78, _⟩ => ⟨S16384x1024, .f32⟩
  | .hbm, ⟨79, _⟩ => ⟨S16384x1024, .f32⟩
  | .hbm, ⟨80, _⟩ => ⟨S16384x1024, .f32⟩
  | .hbm, ⟨81, _⟩ => ⟨S1024x256, .f32⟩
  | .hbm, ⟨82, _⟩ => ⟨S16384x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_cst : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_0 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩

abbrev nD : Nat := 1
abbrev τ : Topo := Topo.v7x

variable {F : FTy → Type} [FloatOps F]

class Facts₀ : Prop where
  bcast_S_S16384x256 : S_.BroadcastsInDim S16384x256 (![] : Fin 0 → Fin S16384x256.rank)
  transposes_S1024x256_S256x1024_1_0 : S1024x256.Transposes [1, 0] S256x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  transposes_S1024x1024_S1024x1024_1_0 : S1024x1024.Transposes [1, 0] S1024x1024
  bcast_S_S16384x1024 : S_.BroadcastsInDim S16384x1024 (![] : Fin 0 → Fin S16384x1024.rank)
  transposes_S256x1024_S1024x256_1_0 : S256x1024.Transposes [1, 0] S1024x256
  dot_S16384x256_S256x1024_S16384x1024_1_0_0_1_n_n_wf : DotDims.WF S16384x256 S256x1024 S16384x1024 [1] [0] [0] [1] [] []
  dot_S16384x1024_S1024x1024_S16384x1024_1_0_0_1_n_n_wf : DotDims.WF S16384x1024 S1024x1024 S16384x1024 [1] [0] [0] [1] [] []
  dot_S16384x1024_S1024x256_S16384x256_1_0_0_1_n_n_wf : DotDims.WF S16384x1024 S1024x256 S16384x256 [1] [0] [0] [1] [] []

variable [Facts₀]

def dot_S16384x256_S256x1024_S16384x1024_1_0_0_1_n_n : DotDims S16384x256 S256x1024 S16384x1024 where
  lhsContracting := [1]
  rhsContracting := [0]
  lhsNonContracting := [0]
  rhsNonContracting := [1]
  lhsBatch := []
  rhsBatch := []
  wf := dot_S16384x256_S256x1024_S16384x1024_1_0_0_1_n_n_wf
def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf
def dot_S16384x1024_S1024x256_S16384x256_1_0_0_1_n_n : DotDims S16384x1024 S1024x256 S16384x256 where
  lhsContracting := [1]
  rhsContracting := [0]
  lhsNonContracting := [0]
  rhsNonContracting := [1]
  lhsBatch := []
  rhsBatch := []
  wf := dot_S16384x1024_S1024x256_S16384x256_1_0_0_1_n_n_wf

class Facts : Prop extends Facts₀ where

variable [Facts]
-- ==== Proof.KernelFrame.lean ====
/- The frame run of `Kernel`, at any float model `F`.

   @main is one straight line of host operations (conversions, transposes, three concatenations, three reshapes)
   followed by one pipelined region of 32 grid points over eleven windows. No host operation writes an argument
   array, the region stages only `main_arg0` among the arguments (as an input), and the body loads its ten input
   buffers whole and stores once, over the whole of the output window's buffer. So every argument array ends as
   launched. -/
import proofs.«149896_j81389630259799_2_alg».proof.Proof.Gen.Kernel.Launch
import proofs.«149896_j81389630259799_2_alg».proof.Proof.Gen.Kernel.Skeleton
import proofs.«149896_j81389630259799_2_alg».proof.Proof.Gen.Kernel.Points
import Idealize.ShloMosaic.Lib.Pipeline.FrameBody
import Idealize.ShloMosaic.Lib.Ring
import Idealize.ShloMosaic.Lib.Tactic

-- a point's membership in a whole-buffer rectangle is looked at structurally, once per coordinate of the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: the launch contents after the line of host operations. -/
abbrev V (c : Dev nD) (b : Ref sig .tc) : Buf (Elt F) ((c : Thread nD τ).loc b) :=
  StableHlo.after hostOps0 (fun b => m (c, b)) b

/-- No host operation of the line allocates its result afresh. -/
theorem hostOps0_fresh : (hostOps0 : List (HloOp τ sig (Elt F))).Forall fun op => op.fresh = ∅ := by
  simp only [List.Forall]; repeat' constructor

/-- @main is the line of host operations, then the region: holding the unscoped buffers at the launch contents it
    reaches the region holding them at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A reference is written by no operation of the line: each operation writes its one result buffer (`main_v0` …
    `main_v25`), and the reference is none of them. -/
local macro "not_written" : tactic => `(tactic| (
  simp only [hostOps0, List.Forall, StableHlo.unary_writes, StableHlo.nary_writes, StableHlo.reshape_writes, Finset.mem_singleton]
  repeat' apply And.intro
  all_goals exact StableHlo.devRef_ne_of_ne (by decide)))

/-! No host operation writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by not_written))
theorem V_main_arg1 (c : Dev nD) : V m c main_arg1 = m ((c : Thread nD τ).loc main_arg1) :=
  StableHlo.after_of_forall_not_mem (b := Proc.devRef .tc main_arg1) _ _ (List.forall_iff_forall_mem.mp (by not_written))
theorem V_main_arg2 (c : Dev nD) : V m c main_arg2 = m ((c : Thread nD τ).loc main_arg2) :=
  StableHlo.after_of_forall_not_mem (b := Proc.devRef .tc main_arg2) _ _ (List.forall_iff_forall_mem.mp (by not_written))
theorem V_main_arg3 (c : Dev nD) : V m c main_arg3 = m ((c : Thread nD τ).loc main_arg3) :=
  StableHlo.after_of_forall_not_mem (b := Proc.devRef .tc main_arg3) _ _ (List.forall_iff_forall_mem.mp (by not_written))
theorem V_main_arg4 (c : Dev nD) : V m c main_arg4 = m ((c : Thread nD τ).loc main_arg4) :=
  StableHlo.after_of_forall_not_mem (b := Proc.devRef .tc main_arg4) _ _ (List.forall_iff_forall_mem.mp (by not_written))
theorem V_main_arg5 (c : Dev nD) : V m c main_arg5 = m ((c : Thread nD τ).loc main_arg5) :=
  StableHlo.after_of_forall_not_mem (b := Proc.devRef .tc main_arg5) _ _ (List.forall_iff_forall_mem.mp (by not_written))
theorem V_main_arg6 (c : Dev nD) : V m c main_arg6 = m ((c : Thread nD τ).loc main_arg6) :=
  StableHlo.after_of_forall_not_mem (b := Proc.devRef .tc main_arg6) _ _ (List.forall_iff_forall_mem.mp (by not_written))
theorem V_main_arg7 (c : Dev nD) : V m c main_arg7 = m ((c : Thread nD τ).loc main_arg7) :=
  StableHlo.after_of_forall_not_mem (b := Proc.devRef .tc main_arg7) _ _ (List.forall_iff_forall_mem.mp (by not_written))
theorem V_main_arg8 (c : Dev nD) : V m c main_arg8 = m ((c : Thread nD τ).loc main_arg8) :=
  StableHlo.after_of_forall_not_mem (b := Proc.devRef .tc main_arg8) _ _ (List.forall_iff_forall_mem.mp (by not_written))
theorem V_main_arg9 (c : Dev nD) : V m c main_arg9 = m ((c : Thread nD τ).loc main_arg9) :=
  StableHlo.after_of_forall_not_mem (b := Proc.devRef .tc main_arg9) _ _ (List.forall_iff_forall_mem.mp (by not_written))
theorem V_main_arg10 (c : Dev nD) : V m c main_arg10 = m ((c : Thread nD τ).loc main_arg10) :=
  StableHlo.after_of_forall_not_mem (b := Proc.devRef .tc main_arg10) _ _ (List.forall_iff_forall_mem.mp (by not_written))
theorem V_main_arg11 (c : Dev nD) : V m c main_arg11 = m ((c : Thread nD τ).loc main_arg11) :=
  StableHlo.after_of_forall_not_mem (b := Proc.devRef .tc main_arg11) _ _ (List.forall_iff_forall_mem.mp (by not_written))
theorem V_main_arg12 (c : Dev nD) : V m c main_arg12 = m ((c : Thread nD τ).loc main_arg12) :=
  StableHlo.after_of_forall_not_mem (b := Proc.devRef .tc main_arg12) _ _ (List.forall_iff_forall_mem.mp (by not_written))
theorem V_main_arg13 (c : Dev nD) : V m c main_arg13 = m ((c : Thread nD τ).loc main_arg13) :=
  StableHlo.after_of_forall_not_mem (b := Proc.devRef .tc main_arg13) _ _ (List.forall_iff_forall_mem.mp (by not_written))
theorem V_main_arg14 (c : Dev nD) : V m c main_arg14 = m ((c : Thread nD τ).loc main_arg14) :=
  StableHlo.after_of_forall_not_mem (b := Proc.devRef .tc main_arg14) _ _ (List.forall_iff_forall_mem.mp (by not_written))
theorem V_main_arg15 (c : Dev nD) : V m c main_arg15 = m ((c : Thread nD τ).loc main_arg15) :=
  StableHlo.after_of_forall_not_mem (b := Proc.devRef .tc main_arg15) _ _ (List.forall_iff_forall_mem.mp (by not_written))
theorem V_main_arg16 (c : Dev nD) : V m c main_arg16 = m ((c : Thread nD τ).loc main_arg16) :=
  StableHlo.after_of_forall_not_mem (b := Proc.devRef .tc main_arg16) _ _ (List.forall_iff_forall_mem.mp (by not_written))
theorem V_main_arg17 (c : Dev nD) : V m c main_arg17 = m ((c : Thread nD τ).loc main_arg17) :=
  StableHlo.after_of_forall_not_mem (b := Proc.devRef .tc main_arg17) _ _ (List.forall_iff_forall_mem.mp (by not_written))
theorem V_main_arg18 (c : Dev nD) : V m c main_arg18 = m ((c : Thread nD τ).loc main_arg18) :=
  StableHlo.after_of_forall_not_mem (b := Proc.devRef .tc main_arg18) _ _ (List.forall_iff_forall_mem.mp (by not_written))
theorem V_main_arg19 (c : Dev nD) : V m c main_arg19 = m ((c : Thread nD τ).loc main_arg19) :=
  StableHlo.after_of_forall_not_mem (b := Proc.devRef .tc main_arg19) _ _ (List.forall_iff_forall_mem.mp (by not_written))
theorem V_main_arg20 (c : Dev nD) : V m c main_arg20 = m ((c : Thread nD τ).loc main_arg20) :=
  StableHlo.after_of_forall_not_mem (b := Proc.devRef .tc main_arg20) _ _ (List.forall_iff_forall_mem.mp (by not_written))
theorem V_main_arg21 (c : Dev nD) : V m c main_arg21 = m ((c : Thread nD τ).loc main_arg21) :=
  StableHlo.after_of_forall_not_mem (b := Proc.devRef .tc main_arg21) _ _ (List.forall_iff_forall_mem.mp (by not_written))
theorem V_main_arg22 (c : Dev nD) : V m c main_arg22 = m ((c : Thread nD τ).loc main_arg22) :=
  StableHlo.after_of_forall_not_mem (b := Proc.devRef .tc main_arg22) _ _ (List.forall_iff_forall_mem.mp (by not_written))
theorem V_main_arg23 (c : Dev nD) : V m c main_arg23 = m ((c : Thread nD τ).loc main_arg23) :=
  StableHlo.after_of_forall_not_mem (b := Proc.devRef .tc main_arg23) _ _ (List.forall_iff_forall_mem.mp (by not_written))
theorem V_main_arg24 (c : Dev nD) : V m c main_arg24 = m ((c : Thread nD τ).loc main_arg24) :=
  StableHlo.after_of_forall_not_mem (b := Proc.devRef .tc main_arg24) _ _ (List.forall_iff_forall_mem.mp (by not_written))
theorem V_main_arg25 (c : Dev nD) : V m c main_arg25 = m ((c : Thread nD τ).loc main_arg25) :=
  StableHlo.after_of_forall_not_mem (b := Proc.devRef .tc main_arg25) _ _ (List.forall_iff_forall_mem.mp (by not_written))
theorem V_main_arg26 (c : Dev nD) : V m c main_arg26 = m ((c : Thread nD τ).loc main_arg26) :=
  StableHlo.after_of_forall_not_mem (b := Proc.devRef .tc main_arg26) _ _ (List.forall_iff_forall_mem.mp (by not_written))
theorem V_main_arg27 (c : Dev nD) : V m c main_arg27 = m ((c : Thread nD τ).loc main_arg27) :=
  StableHlo.after_of_forall_not_mem (b := Proc.devRef .tc main_arg27) _ _ (List.forall_iff_forall_mem.mp (by not_written))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not (unfetched, the
    block index has not moved), for any proof data whose array is `V`'s and whose body leaves the block in place:
    the windows are uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- An argument array that no window stages bypasses the region: the run's post gives it at `V`, which is the
    launch contents. -/
local macro "bypassed" h:term "," a:ident "," va:term : term =>
  `((($h).2 $a (Pipeline.mem_restRefs_of $a (by decide) (by decide))).trans $va)

/-- For any proof data whose arrays are the region-entry contents, a run to the frame post — read at the argument
    arrays: `main_arg0`, input window 0's array, by the library's reading of an input's array after the run; every
    other argument array, staged by no window, by the post's second clause — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs _ _).mono (fun _ h c => ⟨((h c).1 0).trans (((dats 0 c).arrAt_in 0 rfl _).trans ((hA c 0).trans (V_main_arg0 m c))),
      bypassed (h c), main_arg1, (V_main_arg1 m c),
      bypassed (h c), main_arg2, (V_main_arg2 m c),
      bypassed (h c), main_arg3, (V_main_arg3 m c),
      bypassed (h c), main_arg4, (V_main_arg4 m c),
      bypassed (h c), main_arg5, (V_main_arg5 m c),
      bypassed (h c), main_arg6, (V_main_arg6 m c),
      bypassed (h c), main_arg7, (V_main_arg7 m c),
      bypassed (h c), main_arg8, (V_main_arg8 m c),
      bypassed (h c), main_arg9, (V_main_arg9 m c),
      bypassed (h c), main_arg10, (V_main_arg10 m c),
      bypassed (h c), main_arg11, (V_main_arg11 m c),
      bypassed (h c), main_arg12, (V_main_arg12 m c),
      bypassed (h c), main_arg13, (V_main_arg13 m c),
      bypassed (h c), main_arg14, (V_main_arg14 m c),
      bypassed (h c), main_arg15, (V_main_arg15 m c),
      bypassed (h c), main_arg16, (V_main_arg16 m c),
      bypassed (h c), main_arg17, (V_main_arg17 m c),
      bypassed (h c), main_arg18, (V_main_arg18 m c),
      bypassed (h c), main_arg19, (V_main_arg19 m c),
      bypassed (h c), main_arg20, (V_main_arg20 m c),
      bypassed (h c), main_arg21, (V_main_arg21 m c),
      bypassed (h c), main_arg22, (V_main_arg22 m c),
      bypassed (h c), main_arg23, (V_main_arg23 m c),
      bypassed (h c), main_arg24, (V_main_arg24 m c),
      bypassed (h c), main_arg25, (V_main_arg25 m c),
      bypassed (h c), main_arg26, (V_main_arg26 m c),
      bypassed (h c), main_arg27, (V_main_arg27 m c)⟩) h

/-! ## The body's accesses: each buffer whole -/

abbrev r0_0 : Rect S512x256 := Rect.unit (s := S512x256) ![0, 0] S512x256.size inb_S512x256_S512x256_0_0
abbrev r0_1 : Rect S256x1024 := Rect.unit (s := S256x1024) ![0, 0] S256x1024.size inb_S256x1024_S256x1024_0_0
abbrev r0_2 : Rect S1x1024 := Rect.unit (s := S1x1024) ![0, 0] S1x1024.size inb_S1x1024_S1x1024_0_0
abbrev r0_3 : Rect S256x3072 := Rect.unit (s := S256x3072) ![0, 0] S256x3072.size inb_S256x3072_S256x3072_0_0
abbrev r0_4 : Rect S1024x3072 := Rect.unit (s := S1024x3072) ![0, 0] S1024x3072.size inb_S1024x3072_S1024x3072_0_0
abbrev r0_5 : Rect S1x3072 := Rect.unit (s := S1x3072) ![0, 0] S1x3072.size inb_S1x3072_S1x3072_0_0
abbrev r0_6 : Rect S256x1024 := Rect.unit (s := S256x1024) ![0, 0] S256x1024.size inb_S256x1024_S256x1024_0_0
abbrev r0_7 : Rect S1024x1024 := Rect.unit (s := S1024x1024) ![0, 0] S1024x1024.size inb_S1024x1024_S1024x1024_0_0
abbrev r0_8 : Rect S1x1024 := Rect.unit (s := S1x1024) ![0, 0] S1x1024.size inb_S1x1024_S1x1024_0_0
abbrev r0_9 : Rect S1024x256 := Rect.unit (s := S1024x256) ![0, 0] S1024x256.size inb_S1024x256_S1024x256_0_0
abbrev r0_10 : Rect S512x256 := Rect.unit (s := S512x256) ![0, 0] S512x256.size inb_S512x256_S512x256_0_0

/-! ## What the body leaves in the output window's buffer -/

/-- Window 10's staging buffer after the body, from the ten input windows' blocks: the body's one store, over the
    whole buffer, of the payload computed from the loaded blocks. -/
def out0_10 (x0 : Vec F S512x256 .f32) (x1 : Vec F S256x1024 .bf16) (x2 : Vec F S1x1024 .f32) (x3 : Vec F S256x3072 .bf16) (x4 : Vec F S1024x3072 .bf16) (x5 : Vec F S1x3072 .f32) (x6 : Vec F S256x1024 .bf16) (x7 : Vec F S1024x1024 .bf16) (x8 : Vec F S1x1024 .f32) (x9 : Vec F S1024x256 .bf16) : Vec F S512x256 .f32 :=
  View.canon [⟨r0_10, k0_pay1 (k0_pay5 (View.ld x0 r0_0) (View.ld x1 r0_1) (View.ld x2 r0_2) (View.ld x3 r0_3) (View.ld x4 r0_4) (View.ld x5 r0_5))
    (k0_pay6 (View.ld x0 r0_0) (View.ld x1 r0_1) (View.ld x2 r0_2) (View.ld x3 r0_3) (View.ld x4 r0_4) (View.ld x5 r0_5))
    (k0_pay7 (View.ld x0 r0_0) (View.ld x1 r0_1) (View.ld x2 r0_2) (View.ld x3 r0_3) (View.ld x4 r0_4) (View.ld x5 r0_5))
    (k0_pay8 (View.ld x0 r0_0) (View.ld x6 r0_6)) (k0_pay9 (View.ld x7 r0_7)) (constant S512x1024 .f32 0x00000000#32)
    (View.ld x8 r0_8) (View.ld x9 r0_9)⟩]

/-- The one store's rectangle tiles the buffer, so it covers it. -/
theorem cover0_10 (p0 : Vec F S512x256 .f32) (y : S512x256.Idx) :
    ∃ pc ∈ ([⟨r0_10, p0⟩] : List (View.Piece (Elt F) S512x256 .f32)), y ∈ pc.1.set :=
  View.cover_of_tiled [⟨r0_10, p0⟩] S512x256.size (by rfl) y

/-! ## The pipeline's proof data -/

/-- The proof data of the pipeline on core `c`: the arrays as the region finds them (`V`); after the body at point
    `t` each input's buffer at its block and the output's at `out0_10` of the input blocks; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out0_10 (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

/-- The proof data's arrays are the region-entry contents (the definition projected; `V` is never unfolded). -/
theorem A_eq (c : Dev nD) (w : Fin cfg0.W) : (dats m 0 c).A w = V m c (Pipeline.arrRef spec0 w) := by
  dsimp only [dats]

/-! What the body leaves, window by window (the definition's `match` reduced). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) (iblk m c 7 t) (iblk m c 8 t) (iblk m c 9 t) := by dsimp only [dats]

/-! Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body's triple -/

set_option maxHeartbeats 1000000 in
/-- The kernel body at any grid coordinates, on whole staging memrefs — the inputs' at contents `xW`, the output's at
    anything — runs to the continuation holding the inputs' as they were and the output's at `out0_10` of the inputs':
    the body and its part are their skeletons (ten loads of the inputs, a load of the output buffer whose value is
    not used, one store), run operation by operation; the buffer after the store, read back, is the store's payload
    everywhere because the store's rectangle covers the buffer. -/
theorem sound_kernel (c : Dev nD) (E : Set ℕ) (i : grid0.Coords) (arg1 : Memref sig .tc .vmem S512x256 .f32) (harg1 : arg1.IsWhole) (arg2 : Memref sig .tc .vmem S256x1024 .bf16) (harg2 : arg2.IsWhole) (arg3 : Memref sig .tc .vmem S1x1024 .f32) (harg3 : arg3.IsWhole) (arg4 : Memref sig .tc .vmem S256x3072 .bf16) (harg4 : arg4.IsWhole) (arg5 : Memref sig .tc .vmem S1024x3072 .bf16) (harg5 : arg5.IsWhole) (arg6 : Memref sig .tc .vmem S1x3072 .f32) (harg6 : arg6.IsWhole) (arg7 : Memref sig .tc .vmem S256x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S512x256 .f32) (harg11 : arg11.IsWhole)
    (x0 : Vec F S512x256 .f32) (x1 : Vec F S256x1024 .bf16) (x2 : Vec F S1x1024 .f32) (x3 : Vec F S256x3072 .bf16) (x4 : Vec F S1024x3072 .bf16) (x5 : Vec F S1x3072 .f32) (x6 : Vec F S256x1024 .bf16) (x7 : Vec F S1024x1024 .bf16) (x8 : Vec F S1x1024 .f32) (x9 : Vec F S1024x256 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out0_10 x0 x1 x2 x3 x4 x5 x6 x7 x8 x9)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (cover0_10 _)

/-! ## The body obligation, at a generic point -/

/-- What the body is called with at point `t`: the invariant, the core's owed signals, and each window's current
    staging memref at what the pipeline left in it, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns: the same, each memref at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The body at any point: the inputs' memrefs hold their blocks, so `sound_kernel` applies; the invariant and the
    core's owed signals pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- At the compiled mesh, for any values, from any memory with zero counters: every weakly fair execution of @main on
    the TensorCores terminates, and every final state has every array of the pipeline at what the library computes from
    the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  frame_of m ρ (dats m) (A_eq m) (run_main m ρ)

end Cert.Kernel.Frm

end
-- ==== Proof.KernelIdealFrame.lean ====
/- The frame run of `KernelIdeal`, at any float model `F`.

   @main is one straight line of host operations (conversions, transposes, three concatenations, three reshapes)
   followed by one pipelined region of 32 grid points over eleven windows. No host operation writes an argument
   array, the region stages only `main_arg0` among the arguments (as an input), and the body loads its ten input
   buffers whole and stores once, over the whole of the output window's buffer. So every argument array ends as
   launched. -/
import proofs.«149896_j81389630259799_2_alg».proof.Proof.Gen.KernelIdeal.Launch
import proofs.«149896_j81389630259799_2_alg».proof.Proof.Gen.KernelIdeal.Skeleton
import proofs.«149896_j81389630259799_2_alg».proof.Proof.Gen.KernelIdeal.Points
import Idealize.ShloMosaic.Lib.Pipeline.FrameBody
import Idealize.ShloMosaic.Lib.Ring
import Idealize.ShloMosaic.Lib.Tactic

-- a point's membership in a whole-buffer rectangle is looked at structurally, once per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: the launch contents after the line of host operations. -/
abbrev V (c : Dev nD) (b : Ref sig .tc) : Buf (Elt F) ((c : Thread nD τ).loc b) :=
  StableHlo.after hostOps0 (fun b => m (c, b)) b

/-- No host operation of the line allocates its result afresh. -/
theorem hostOps0_fresh : (hostOps0 : List (HloOp τ sig (Elt F))).Forall fun op => op.fresh = ∅ := by
  simp only [List.Forall]; repeat' constructor

/-- @main is the line of host operations, then the region: holding the unscoped buffers at the launch contents it
    reaches the region holding them at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A reference is written by no operation of the line: each operation writes its one result buffer (`main_v0` …
    `main_v25`), and the reference is none of them. -/
local macro "not_written" : tactic => `(tactic| (
  simp only [hostOps0, List.Forall, StableHlo.unary_writes, StableHlo.nary_writes, StableHlo.reshape_writes, Finset.mem_singleton]
  repeat' apply And.intro
  all_goals exact StableHlo.devRef_ne_of_ne (by decide)))

/-! No host operation writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by not_written))
theorem V_main_arg1 (c : Dev nD) : V m c main_arg1 = m ((c : Thread nD τ).loc main_arg1) :=
  StableHlo.after_of_forall_not_mem (b := Proc.devRef .tc main_arg1) _ _ (List.forall_iff_forall_mem.mp (by not_written))
theorem V_main_arg2 (c : Dev nD) : V m c main_arg2 = m ((c : Thread nD τ).loc main_arg2) :=
  StableHlo.after_of_forall_not_mem (b := Proc.devRef .tc main_arg2) _ _ (List.forall_iff_forall_mem.mp (by not_written))
theorem V_main_arg3 (c : Dev nD) : V m c main_arg3 = m ((c : Thread nD τ).loc main_arg3) :=
  StableHlo.after_of_forall_not_mem (b := Proc.devRef .tc main_arg3) _ _ (List.forall_iff_forall_mem.mp (by not_written))
theorem V_main_arg4 (c : Dev nD) : V m c main_arg4 = m ((c : Thread nD τ).loc main_arg4) :=
  StableHlo.after_of_forall_not_mem (b := Proc.devRef .tc main_arg4) _ _ (List.forall_iff_forall_mem.mp (by not_written))
theorem V_main_arg5 (c : Dev nD) : V m c main_arg5 = m ((c : Thread nD τ).loc main_arg5) :=
  StableHlo.after_of_forall_not_mem (b := Proc.devRef .tc main_arg5) _ _ (List.forall_iff_forall_mem.mp (by not_written))
theorem V_main_arg6 (c : Dev nD) : V m c main_arg6 = m ((c : Thread nD τ).loc main_arg6) :=
  StableHlo.after_of_forall_not_mem (b := Proc.devRef .tc main_arg6) _ _ (List.forall_iff_forall_mem.mp (by not_written))
theorem V_main_arg7 (c : Dev nD) : V m c main_arg7 = m ((c : Thread nD τ).loc main_arg7) :=
  StableHlo.after_of_forall_not_mem (b := Proc.devRef .tc main_arg7) _ _ (List.forall_iff_forall_mem.mp (by not_written))
theorem V_main_arg8 (c : Dev nD) : V m c main_arg8 = m ((c : Thread nD τ).loc main_arg8) :=
  StableHlo.after_of_forall_not_mem (b := Proc.devRef .tc main_arg8) _ _ (List.forall_iff_forall_mem.mp (by not_written))
theorem V_main_arg9 (c : Dev nD) : V m c main_arg9 = m ((c : Thread nD τ).loc main_arg9) :=
  StableHlo.after_of_forall_not_mem (b := Proc.devRef .tc main_arg9) _ _ (List.forall_iff_forall_mem.mp (by not_written))
theorem V_main_arg10 (c : Dev nD) : V m c main_arg10 = m ((c : Thread nD τ).loc main_arg10) :=
  StableHlo.after_of_forall_not_mem (b := Proc.devRef .tc main_arg10) _ _ (List.forall_iff_forall_mem.mp (by not_written))
theorem V_main_arg11 (c : Dev nD) : V m c main_arg11 = m ((c : Thread nD τ).loc main_arg11) :=
  StableHlo.after_of_forall_not_mem (b := Proc.devRef .tc main_arg11) _ _ (List.forall_iff_forall_mem.mp (by not_written))
theorem V_main_arg12 (c : Dev nD) : V m c main_arg12 = m ((c : Thread nD τ).loc main_arg12) :=
  StableHlo.after_of_forall_not_mem (b := Proc.devRef .tc main_arg12) _ _ (List.forall_iff_forall_mem.mp (by not_written))
theorem V_main_arg13 (c : Dev nD) : V m c main_arg13 = m ((c : Thread nD τ).loc main_arg13) :=
  StableHlo.after_of_forall_not_mem (b := Proc.devRef .tc main_arg13) _ _ (List.forall_iff_forall_mem.mp (by not_written))
theorem V_main_arg14 (c : Dev nD) : V m c main_arg14 = m ((c : Thread nD τ).loc main_arg14) :=
  StableHlo.after_of_forall_not_mem (b := Proc.devRef .tc main_arg14) _ _ (List.forall_iff_forall_mem.mp (by not_written))
theorem V_main_arg15 (c : Dev nD) : V m c main_arg15 = m ((c : Thread nD τ).loc main_arg15) :=
  StableHlo.after_of_forall_not_mem (b := Proc.devRef .tc main_arg15) _ _ (List.forall_iff_forall_mem.mp (by not_written))
theorem V_main_arg16 (c : Dev nD) : V m c main_arg16 = m ((c : Thread nD τ).loc main_arg16) :=
  StableHlo.after_of_forall_not_mem (b := Proc.devRef .tc main_arg16) _ _ (List.forall_iff_forall_mem.mp (by not_written))
theorem V_main_arg17 (c : Dev nD) : V m c main_arg17 = m ((c : Thread nD τ).loc main_arg17) :=
  StableHlo.after_of_forall_not_mem (b := Proc.devRef .tc main_arg17) _ _ (List.forall_iff_forall_mem.mp (by not_written))
theorem V_main_arg18 (c : Dev nD) : V m c main_arg18 = m ((c : Thread nD τ).loc main_arg18) :=
  StableHlo.after_of_forall_not_mem (b := Proc.devRef .tc main_arg18) _ _ (List.forall_iff_forall_mem.mp (by not_written))
theorem V_main_arg19 (c : Dev nD) : V m c main_arg19 = m ((c : Thread nD τ).loc main_arg19) :=
  StableHlo.after_of_forall_not_mem (b := Proc.devRef .tc main_arg19) _ _ (List.forall_iff_forall_mem.mp (by not_written))
theorem V_main_arg20 (c : Dev nD) : V m c main_arg20 = m ((c : Thread nD τ).loc main_arg20) :=
  StableHlo.after_of_forall_not_mem (b := Proc.devRef .tc main_arg20) _ _ (List.forall_iff_forall_mem.mp (by not_written))
theorem V_main_arg21 (c : Dev nD) : V m c main_arg21 = m ((c : Thread nD τ).loc main_arg21) :=
  StableHlo.after_of_forall_not_mem (b := Proc.devRef .tc main_arg21) _ _ (List.forall_iff_forall_mem.mp (by not_written))
theorem V_main_arg22 (c : Dev nD) : V m c main_arg22 = m ((c : Thread nD τ).loc main_arg22) :=
  StableHlo.after_of_forall_not_mem (b := Proc.devRef .tc main_arg22) _ _ (List.forall_iff_forall_mem.mp (by not_written))
theorem V_main_arg23 (c : Dev nD) : V m c main_arg23 = m ((c : Thread nD τ).loc main_arg23) :=
  StableHlo.after_of_forall_not_mem (b := Proc.devRef .tc main_arg23) _ _ (List.forall_iff_forall_mem.mp (by not_written))
theorem V_main_arg24 (c : Dev nD) : V m c main_arg24 = m ((c : Thread nD τ).loc main_arg24) :=
  StableHlo.after_of_forall_not_mem (b := Proc.devRef .tc main_arg24) _ _ (List.forall_iff_forall_mem.mp (by not_written))
theorem V_main_arg25 (c : Dev nD) : V m c main_arg25 = m ((c : Thread nD τ).loc main_arg25) :=
  StableHlo.after_of_forall_not_mem (b := Proc.devRef .tc main_arg25) _ _ (List.forall_iff_forall_mem.mp (by not_written))
theorem V_main_arg26 (c : Dev nD) : V m c main_arg26 = m ((c : Thread nD τ).loc main_arg26) :=
  StableHlo.after_of_forall_not_mem (b := Proc.devRef .tc main_arg26) _ _ (List.forall_iff_forall_mem.mp (by not_written))
theorem V_main_arg27 (c : Dev nD) : V m c main_arg27 = m ((c : Thread nD τ).loc main_arg27) :=
  StableHlo.after_of_forall_not_mem (b := Proc.devRef .tc main_arg27) _ _ (List.forall_iff_forall_mem.mp (by not_written))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not (unfetched, the
    block index has not moved), for any proof data whose array is `V`'s and whose body leaves the block in place:
    the windows are uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- An argument array that no window stages bypasses the region: the run's post gives it at `V`, which is the
    launch contents. -/
local macro "bypassed" h:term "," a:ident "," va:term : term =>
  `((($h).2 $a (Pipeline.mem_restRefs_of $a (by decide) (by decide))).trans $va)

/-- For any proof data whose arrays are the region-entry contents, a run to the frame post — read at the argument
    arrays: `main_arg0`, input window 0's array, by the library's reading of an input's array after the run; every
    other argument array, staged by no window, by the post's second clause — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs _ _).mono (fun _ h c => ⟨((h c).1 0).trans (((dats 0 c).arrAt_in 0 rfl _).trans ((hA c 0).trans (V_main_arg0 m c))),
      bypassed (h c), main_arg1, (V_main_arg1 m c),
      bypassed (h c), main_arg2, (V_main_arg2 m c),
      bypassed (h c), main_arg3, (V_main_arg3 m c),
      bypassed (h c), main_arg4, (V_main_arg4 m c),
      bypassed (h c), main_arg5, (V_main_arg5 m c),
      bypassed (h c), main_arg6, (V_main_arg6 m c),
      bypassed (h c), main_arg7, (V_main_arg7 m c),
      bypassed (h c), main_arg8, (V_main_arg8 m c),
      bypassed (h c), main_arg9, (V_main_arg9 m c),
      bypassed (h c), main_arg10, (V_main_arg10 m c),
      bypassed (h c), main_arg11, (V_main_arg11 m c),
      bypassed (h c), main_arg12, (V_main_arg12 m c),
      bypassed (h c), main_arg13, (V_main_arg13 m c),
      bypassed (h c), main_arg14, (V_main_arg14 m c),
      bypassed (h c), main_arg15, (V_main_arg15 m c),
      bypassed (h c), main_arg16, (V_main_arg16 m c),
      bypassed (h c), main_arg17, (V_main_arg17 m c),
      bypassed (h c), main_arg18, (V_main_arg18 m c),
      bypassed (h c), main_arg19, (V_main_arg19 m c),
      bypassed (h c), main_arg20, (V_main_arg20 m c),
      bypassed (h c), main_arg21, (V_main_arg21 m c),
      bypassed (h c), main_arg22, (V_main_arg22 m c),
      bypassed (h c), main_arg23, (V_main_arg23 m c),
      bypassed (h c), main_arg24, (V_main_arg24 m c),
      bypassed (h c), main_arg25, (V_main_arg25 m c),
      bypassed (h c), main_arg26, (V_main_arg26 m c),
      bypassed (h c), main_arg27, (V_main_arg27 m c)⟩) h

/-! ## The body's accesses: each buffer whole -/

abbrev r0_0 : Rect S512x256 := Rect.unit (s := S512x256) ![0, 0] S512x256.size inb_S512x256_S512x256_0_0
abbrev r0_1 : Rect S256x1024 := Rect.unit (s := S256x1024) ![0, 0] S256x1024.size inb_S256x1024_S256x1024_0_0
abbrev r0_2 : Rect S1x1024 := Rect.unit (s := S1x1024) ![0, 0] S1x1024.size inb_S1x1024_S1x1024_0_0
abbrev r0_3 : Rect S256x3072 := Rect.unit (s := S256x3072) ![0, 0] S256x3072.size inb_S256x3072_S256x3072_0_0
abbrev r0_4 : Rect S1024x3072 := Rect.unit (s := S1024x3072) ![0, 0] S1024x3072.size inb_S1024x3072_S1024x3072_0_0
abbrev r0_5 : Rect S1x3072 := Rect.unit (s := S1x3072) ![0, 0] S1x3072.size inb_S1x3072_S1x3072_0_0
abbrev r0_6 : Rect S256x1024 := Rect.unit (s := S256x1024) ![0, 0] S256x1024.size inb_S256x1024_S256x1024_0_0
abbrev r0_7 : Rect S1024x1024 := Rect.unit (s := S1024x1024) ![0, 0] S1024x1024.size inb_S1024x1024_S1024x1024_0_0
abbrev r0_8 : Rect S1x1024 := Rect.unit (s := S1x1024) ![0, 0] S1x1024.size inb_S1x1024_S1x1024_0_0
abbrev r0_9 : Rect S1024x256 := Rect.unit (s := S1024x256) ![0, 0] S1024x256.size inb_S1024x256_S1024x256_0_0
abbrev r0_10 : Rect S512x256 := Rect.unit (s := S512x256) ![0, 0] S512x256.size inb_S512x256_S512x256_0_0

/-! ## What the body leaves in the output window's buffer -/

/-- Window 10's staging buffer after the body, from the ten input windows' blocks: the body's one store, over the
    whole buffer, of the payload computed from the loaded blocks. -/
def out0_10 (x0 : Vec F S512x256 .f32) (x1 : Vec F S256x1024 .bf16) (x2 : Vec F S1x1024 .f32) (x3 : Vec F S256x3072 .bf16) (x4 : Vec F S1024x3072 .bf16) (x5 : Vec F S1x3072 .f32) (x6 : Vec F S256x1024 .bf16) (x7 : Vec F S1024x1024 .bf16) (x8 : Vec F S1x1024 .f32) (x9 : Vec F S1024x256 .bf16) : Vec F S512x256 .f32 :=
  View.canon [⟨r0_10, k0_pay1 (k0_pay5 (View.ld x0 r0_0) (View.ld x1 r0_1) (View.ld x2 r0_2) (View.ld x3 r0_3) (View.ld x4 r0_4) (View.ld x5 r0_5))
    (k0_pay6 (View.ld x0 r0_0) (View.ld x1 r0_1) (View.ld x2 r0_2) (View.ld x3 r0_3) (View.ld x4 r0_4) (View.ld x5 r0_5))
    (k0_pay7 (View.ld x0 r0_0) (View.ld x1 r0_1) (View.ld x2 r0_2) (View.ld x3 r0_3) (View.ld x4 r0_4) (View.ld x5 r0_5))
    (k0_pay8 (View.ld x0 r0_0) (View.ld x6 r0_6)) (k0_pay9 (View.ld x7 r0_7)) (constant S512x1024 .f32 0x00000000#32)
    (View.ld x8 r0_8) (View.ld x9 r0_9)⟩]

/-- The one store's rectangle tiles the buffer, so it covers it. -/
theorem cover0_10 (p0 : Vec F S512x256 .f32) (y : S512x256.Idx) :
    ∃ pc ∈ ([⟨r0_10, p0⟩] : List (View.Piece (Elt F) S512x256 .f32)), y ∈ pc.1.set :=
  View.cover_of_tiled [⟨r0_10, p0⟩] S512x256.size (by rfl) y

/-! ## The pipeline's proof data -/

/-- The proof data of the pipeline on core `c`: the arrays as the region finds them (`V`); after the body at point
    `t` each input's buffer at its block and the output's at `out0_10` of the input blocks; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out0_10 (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

/-- The proof data's arrays are the region-entry contents (the definition projected; `V` is never unfolded). -/
theorem A_eq (c : Dev nD) (w : Fin cfg0.W) : (dats m 0 c).A w = V m c (Pipeline.arrRef spec0 w) := by
  dsimp only [dats]

/-! What the body leaves, window by window (the definition's `match` reduced). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) (iblk m c 7 t) (iblk m c 8 t) (iblk m c 9 t) := by dsimp only [dats]

/-! Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body's triple -/

set_option maxHeartbeats 1000000 in
/-- The kernel body at any grid coordinates, on whole staging memrefs — the inputs' at contents `xW`, the output's at
    anything — runs to the continuation holding the inputs' as they were and the output's at `out0_10` of the inputs':
    the body and its part are their skeletons (ten loads of the inputs, a load of the output buffer whose value is
    not used, one store), run operation by operation; the buffer after the store, read back, is the store's payload
    everywhere because the store's rectangle covers the buffer. -/
theorem sound_kernel (c : Dev nD) (E : Set ℕ) (i : grid0.Coords) (arg1 : Memref sig .tc .vmem S512x256 .f32) (harg1 : arg1.IsWhole) (arg2 : Memref sig .tc .vmem S256x1024 .bf16) (harg2 : arg2.IsWhole) (arg3 : Memref sig .tc .vmem S1x1024 .f32) (harg3 : arg3.IsWhole) (arg4 : Memref sig .tc .vmem S256x3072 .bf16) (harg4 : arg4.IsWhole) (arg5 : Memref sig .tc .vmem S1024x3072 .bf16) (harg5 : arg5.IsWhole) (arg6 : Memref sig .tc .vmem S1x3072 .f32) (harg6 : arg6.IsWhole) (arg7 : Memref sig .tc .vmem S256x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S512x256 .f32) (harg11 : arg11.IsWhole)
    (x0 : Vec F S512x256 .f32) (x1 : Vec F S256x1024 .bf16) (x2 : Vec F S1x1024 .f32) (x3 : Vec F S256x3072 .bf16) (x4 : Vec F S1024x3072 .bf16) (x5 : Vec F S1x3072 .f32) (x6 : Vec F S256x1024 .bf16) (x7 : Vec F S1024x1024 .bf16) (x8 : Vec F S1x1024 .f32) (x9 : Vec F S1024x256 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out0_10 x0 x1 x2 x3 x4 x5 x6 x7 x8 x9)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (cover0_10 _)

/-! ## The body obligation, at a generic point -/

/-- What the body is called with at point `t`: the invariant, the core's owed signals, and each window's current
    staging memref at what the pipeline left in it, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns: the same, each memref at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The body at any point: the inputs' memrefs hold their blocks, so `sound_kernel` applies; the invariant and the
    core's owed signals pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- At the compiled mesh, for any values, from any memory with zero counters: every weakly fair execution of @main on
    the TensorCores terminates, and every final state has every array of the pipeline at what the library computes from
    the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  frame_of m ρ (dats m) (A_eq m) (run_main m ρ)

end Cert.KernelIdeal.Frm

end
-- ==== Proof.Highway.lean ====
/-
  The layer as one function of a row.

  For one row `xr` of the input (256 entries) the layer computes, over the extended reals:
    a k   = |xr k| + 1/10-literal                                  (the shifted magnitude)
    s j   = tanh (Σ_k a k · W0 (j, k) + b0 j)                       (the first state, 1024 entries)
    gate U W b s' j = tanh ((Σ_k a k · U (j, k) + Σ_l s' l · W (j, l)) + b j)
    g, z, r = the gates with (Ug, Wg, bg), (Uz, Wz, bz), (Ur, Wr, br) on s
    h     = the gate with (Uh, Wh, bh) on s · r
    s1 j  = z j · s j + (1 - g j) · h j                             (the highway mix)
    y q   = Σ_j s1 j · W4 (q, j)                                    (256 entries)
  Every row of the output depends on the same row of the input only, so both programs are compared
  row by row against `out`.
-/
import Idealize.ShloMosaic.Lib.ValueIdx
import Idealize.ShloMosaic.PureOps.Ideal

noncomputable section

namespace Cert.Highway

open Idealize.ShloMosaic Idealize.ShloMosaic.ValueIdx

/-- A weight matrix with `a` rows and `b` columns. -/
abbrev Mat (a b : ℕ) : Type := FVec Ideal ⟨2, ![a, b]⟩ .f32
/-- A bias vector with `a` entries. -/
abbrev Vct (a : ℕ) : Type := FVec Ideal ⟨1, ![a]⟩ .f32

/-- The weights of the layer. -/
structure Params where
  w0 : Mat 1024 256
  b0 : Vct 1024
  ug : Mat 1024 256
  wg : Mat 1024 1024
  bg : Vct 1024
  uz : Mat 1024 256
  wz : Mat 1024 1024
  bz : Vct 1024
  ur : Mat 1024 256
  wr : Mat 1024 1024
  br : Vct 1024
  uh : Mat 1024 256
  wh : Mat 1024 1024
  bh : Vct 1024
  w4 : Mat 256 1024

/-- The shift added to the magnitudes: the value of the single-precision literal nearest to one tenth. -/
def tenth : EReal := Ideal.ofBits .f32 0x3DCCCCCD#32
/-- The value of the single-precision literal one. -/
def unit : EReal := Ideal.ofBits .f32 0x3F800000#32

/-- The shifted magnitude of entry `k` of the row. -/
def mag (xr : Fin 256 → EReal) (k : Fin 256) : EReal := max (xr k) (-(xr k)) + tenth

/-- The first state. -/
def state (w0 : Mat 1024 256) (b0 : Vct 1024) (xr : Fin 256 → EReal) (j : Fin 1024) : EReal :=
  Ideal.tanh ((∑ k : Fin 256, mag xr k * w0 (ix2 j k)) + b0 (ix1 j))

/-- A gate: the row's part plus the state's part, plus the bias, through tanh. -/
def gate (u : Mat 1024 256) (w : Mat 1024 1024) (b : Vct 1024) (xr : Fin 256 → EReal) (sr : Fin 1024 → EReal)
    (j : Fin 1024) : EReal :=
  Ideal.tanh (((∑ k : Fin 256, mag xr k * u (ix2 j k)) + ∑ l : Fin 1024, sr l * w (ix2 j l)) + b (ix1 j))

/-- The highway mix of the first state and the candidate. -/
def mixed (P : Params) (xr : Fin 256 → EReal) (j : Fin 1024) : EReal :=
  gate P.uz P.wz P.bz xr (state P.w0 P.b0 xr) j * state P.w0 P.b0 xr j
    + (unit - gate P.ug P.wg P.bg xr (state P.w0 P.b0 xr) j)
      * gate P.uh P.wh P.bh xr (fun l => state P.w0 P.b0 xr l * gate P.ur P.wr P.br xr (state P.w0 P.b0 xr) l) j

/-- The layer's output row. -/
def out (P : Params) (xr : Fin 256 → EReal) (q : Fin 256) : EReal :=
  ∑ j : Fin 1024, mixed P xr j * P.w4 (ix2 q j)

/-- The layer on every row of an input of 16384 rows: entry `(p, q)` is the output row of row `p`, at `q`. -/
def whole (P : Params) (x : FVec Ideal ⟨2, ![16384, 256]⟩ .f32) : FVec Ideal ⟨2, ![16384, 256]⟩ .f32 :=
  fun i => out P (fun k => x (ix2 (i 0) k)) (i 1)

theorem whole_apply (P : Params) (x : FVec Ideal ⟨2, ![16384, 256]⟩ .f32) (p : Fin 16384) (q : Fin 256) :
    whole P x (ix2 p q) = out P (fun k => x (ix2 p k)) q := rfl

end Cert.Highway

end
-- ==== Proof.LibMatmulZero.lean ====
/-
  A matrix product into a zero accumulator, read at one output index, at the extended reals.

  `matmul_zero_apply`: for a product that contracts ONE axis of extent `K`, the entry at an output index `j` is the sum
  over `k : Fin K` of the left operand at `li k` times the right operand at `ri k`, for ANY naming `li`, `ri` of the two
  operand indices whose coordinates are the product's own at `j` and the contracted position `k` (two per-axis
  hypotheses, closed at literal shapes by the dimension numbers' facts). It re-indexes the product's sum over its
  contraction shape to a sum over `Fin K`, so that a value proof can state a layer as `∑ k, a k * W k j`.
-/
import Idealize.ShloMosaic.Lib.ValueIdx
import Idealize.ShloMosaic.PureOps.Ideal.Laws

noncomputable section

namespace Cert.LibMatmulZero

open Idealize.ShloMosaic Idealize.ShloMosaic.ValueIdx

/-- A product contracting ONE axis of extent `K`, into the zero accumulator, read at an output index `j`: the sum over
    `k` of the left operand at `li k` times the right at `ri k`, for any naming `li`, `ri` of the operand indices whose
    coordinates are the product's own (`hl`, `hr'`). -/
theorem matmul_zero_apply {sl sr so : Shape} {φ₁ φ₂ : FTy} (d : DotDims sl sr so) (K : Nat) (hr : d.contr.rank = 1)
    (hs : d.contr.size ⟨0, by omega⟩ = K) (A : FVec Ideal sl φ₁) (B : FVec Ideal sr φ₂) (j : so.Idx)
    (li : Fin K → sl.Idx) (ri : Fin K → sr.Idx)
    (hl : ∀ k a, (d.lhsIdx j ((contrEquiv1 d K hr hs).symm k) a).val = (li k a).val)
    (hr' : ∀ k a, (d.rhsIdx j ((contrEquiv1 d K hr hs).symm k) a).val = (ri k a).val) :
    FloatOps.matmul d none A B (constant so .f32 0x00000000#32) j = ∑ k : Fin K, A (li k) * B (ri k) := by
  refine (Ideal.matmul_constant_zero_apply d none A B j).trans ?_
  rw [← Equiv.sum_comp (contrEquiv1 d K hr hs).symm]
  refine Finset.sum_congr rfl fun k _ => ?_
  rw [show d.lhsIdx j ((contrEquiv1 d K hr hs).symm k) = li k from funext fun a => Fin.ext (hl k a),
    show d.rhsIdx j ((contrEquiv1 d K hr hs).symm k) = ri k from funext fun a => Fin.ext (hr' k a)]

end Cert.LibMatmulZero

end
-- ==== Proof.LibMatmulRows.lean ====
/-
  A matrix product contracting the one shared axis, into a zero accumulator, read at an index, at the ideal values.

  For an `a × b` left operand and a `b × c` right operand (dimension numbers: contract the left's axis 1 with the
  right's axis 0, no batch axes), entry `(p, n)` of the product is `Σ_k A(p, k) · B(k, n)`: the sum of the exact
  products, the zero the accumulator starts from adding nothing.
-/
import Idealize.ShloMosaic.Lib.ValueIdx
import Idealize.ShloMosaic.PureOps.Ideal.Laws
import proofs.«149896_j81389630259799_2_alg».proof.Proof.LibMatmulZero

noncomputable section

namespace Cert.LibMatmulRows

open Idealize.ShloMosaic Idealize.ShloMosaic.ValueIdx

variable {a b c : ℕ}

/-- The dimension numbers of an `a × b` by `b × c` product over the shared axis. -/
abbrev rowsDims (wf : DotDims.WF ⟨2, ![a, b]⟩ ⟨2, ![b, c]⟩ ⟨2, ![a, c]⟩ [1] [0] [0] [1] [] []) :
    DotDims ⟨2, ![a, b]⟩ ⟨2, ![b, c]⟩ ⟨2, ![a, c]⟩ where
  lhsContracting := [1]
  rhsContracting := [0]
  lhsNonContracting := [0]
  rhsNonContracting := [1]
  lhsBatch := []
  rhsBatch := []
  wf := wf

/-- THE PRODUCT READ AT `(p, n)`, for the record `rowsDims`. -/
theorem rowsDims_matmul_apply {φ₁ φ₂ : FTy} (wf : DotDims.WF ⟨2, ![a, b]⟩ ⟨2, ![b, c]⟩ ⟨2, ![a, c]⟩ [1] [0] [0] [1] [] [])
    (A : FVec Ideal ⟨2, ![a, b]⟩ φ₁) (B : FVec Ideal ⟨2, ![b, c]⟩ φ₂) (p : Fin a) (n : Fin c) :
    FloatOps.matmul (rowsDims wf) none A B (constant ⟨2, ![a, c]⟩ .f32 0x00000000#32) (ix2 p n)
      = ∑ k : Fin b, A (ix2 p k) * B (ix2 k n) := by
  refine Cert.LibMatmulZero.matmul_zero_apply (rowsDims wf) b rfl rfl A B (ix2 p n) (fun k => ix2 p k) (fun k => ix2 k n) ?_ ?_
  · intro k ax
    match ax with
    | ⟨0, _⟩ =>
      show ((rowsDims wf).lhsIdx (ix2 p n) ((contrEquiv1 (rowsDims wf) b rfl rfl).symm k) 0).val = p.val
      unfold DotDims.lhsIdx
      rw [dif_neg (show ¬(0 : Fin 2) ∈ (rowsDims wf).lhsBatch from List.not_mem_nil),
        dif_pos (show (0 : Fin 2) ∈ (rowsDims wf).lhsNonContracting from List.mem_singleton.mpr rfl)]
      rfl
    | ⟨1, _⟩ =>
      exact ((rowsDims wf).lhsIdx_val_of_single rfl (ix2 p n) _).trans (contrEquiv1_symm_val (rowsDims wf) b rfl rfl k)
  · intro k ax
    match ax with
    | ⟨0, _⟩ =>
      exact ((rowsDims wf).rhsIdx_val_of_single rfl (ix2 p n) _).trans (contrEquiv1_symm_val (rowsDims wf) b rfl rfl k)
    | ⟨1, _⟩ =>
      show ((rowsDims wf).rhsIdx (ix2 p n) ((contrEquiv1 (rowsDims wf) b rfl rfl).symm k) 1).val = n.val
      unfold DotDims.rhsIdx
      rw [dif_neg (show ¬(1 : Fin 2) ∈ (rowsDims wf).rhsBatch from List.not_mem_nil),
        dif_pos (show (1 : Fin 2) ∈ (rowsDims wf).rhsNonContracting from List.mem_singleton.mpr rfl)]
      rfl

/-- THE PRODUCT READ AT `(p, n)`, for any dimension-number record with the six lists of such a product (each
    hypothesis is `rfl` for a record written with those literal fields, whatever proves its `wf`). -/
theorem matmul_rows_apply {φ₁ φ₂ : FTy} (d : DotDims ⟨2, ![a, b]⟩ ⟨2, ![b, c]⟩ ⟨2, ![a, c]⟩)
    (hlc : d.lhsContracting = [1]) (hrc : d.rhsContracting = [0]) (hln : d.lhsNonContracting = [0])
    (hrn : d.rhsNonContracting = [1]) (hlb : d.lhsBatch = []) (hrb : d.rhsBatch = [])
    (A : FVec Ideal ⟨2, ![a, b]⟩ φ₁) (B : FVec Ideal ⟨2, ![b, c]⟩ φ₂) (p : Fin a) (n : Fin c) :
    FloatOps.matmul d none A B (constant ⟨2, ![a, c]⟩ .f32 0x00000000#32) (ix2 p n)
      = ∑ k : Fin b, A (ix2 p k) * B (ix2 k n) := by
  obtain ⟨lc, rc, ln, rn, lb, rb, wf⟩ := d
  dsimp only at hlc hrc hln hrn hlb hrb
  subst hlc hrc hln hrn hlb hrb
  exact rowsDims_matmul_apply wf A B p n

end Cert.LibMatmulRows

end
-- ==== Proof.BlockHighway.lean ====
/-
  One block of the kernel computes the layer on its 512 rows.

  The body's result for a block is a chain of pure operations of what it loads: the block of 512 input rows `x0`, the
  transposed first weight `x1`, the first bias as a row `x2`, the three gates' transposed weights side by side
  (`x3` for the input's part, `x4` for the state's part, `x5` the three biases end to end as a row), the candidate's
  transposed weights `x6`, `x7` and bias row `x8`, and the transposed last weight `x9`. Read at row `r` of the block
  and an entry, each stage is the layer's stage (`Cert.Highway`) of row `r`: a product into a zero accumulator is the
  plain sum over the shared axis, a change of float format is the identity, a bias row spread down the rows reads
  its entry, and the gates are the three column bands of one product of width 3072.
-/
import proofs.«149896_j81389630259799_2_alg».proof.Proof.Gen.KernelIdeal.Skeleton
import proofs.«149896_j81389630259799_2_alg».proof.Proof.Highway
import proofs.«149896_j81389630259799_2_alg».proof.Proof.LibMatmulRows
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockHighway

open Cert.KernelIdeal Cert.KernelIdeal.Gen Cert.KernelIdeal.Facts₀ Idealize.ShloMosaic Idealize.ShloMosaic.ValueIdx Cert.Highway
open Cert.LibMatmulRows

/-- Row `r` of the block. -/
abbrev rowb (x0 : Vec Ideal S512x256 .f32) (r : Fin 512) : Fin 256 → EReal := fun k => x0 (ix2 r k)

/-- What the block loads, against the layer's weights: the transposed weights hold the weights' entries with the
    coordinates exchanged, the bias rows the biases, and band `c` (columns `1024 c` to `1024 c + 1023`) of the fused
    operands the `c`-th gate's. -/
structure Loads (P : Params) (x1 : Vec Ideal S256x1024 .bf16) (x2 : Vec Ideal S1x1024 .f32) (x3 : Vec Ideal S256x3072 .bf16)
    (x4 : Vec Ideal S1024x3072 .bf16) (x5 : Vec Ideal S1x3072 .f32) (x6 : Vec Ideal S256x1024 .bf16)
    (x7 : Vec Ideal S1024x1024 .bf16) (x8 : Vec Ideal S1x1024 .f32) (x9 : Vec Ideal S1024x256 .bf16) : Prop where
  w0 : ∀ (k : Fin 256) (j : Fin 1024), x1 (ix2 k j) = P.w0 (ix2 j k)
  b0 : ∀ j : Fin 1024, x2 (ix2 (0 : Fin 1) j) = P.b0 (ix1 j)
  ug : ∀ (k : Fin 256) (j : Fin 1024), x3 (ix2 k (⟨0 + j.val, by omega⟩ : Fin 3072)) = P.ug (ix2 j k)
  uz : ∀ (k : Fin 256) (j : Fin 1024), x3 (ix2 k (⟨1024 + j.val, by omega⟩ : Fin 3072)) = P.uz (ix2 j k)
  ur : ∀ (k : Fin 256) (j : Fin 1024), x3 (ix2 k (⟨2048 + j.val, by omega⟩ : Fin 3072)) = P.ur (ix2 j k)
  wg : ∀ (l : Fin 1024) (j : Fin 1024), x4 (ix2 l (⟨0 + j.val, by omega⟩ : Fin 3072)) = P.wg (ix2 j l)
  wz : ∀ (l : Fin 1024) (j : Fin 1024), x4 (ix2 l (⟨1024 + j.val, by omega⟩ : Fin 3072)) = P.wz (ix2 j l)
  wr : ∀ (l : Fin 1024) (j : Fin 1024), x4 (ix2 l (⟨2048 + j.val, by omega⟩ : Fin 3072)) = P.wr (ix2 j l)
  bg : ∀ j : Fin 1024, x5 (ix2 (0 : Fin 1) (⟨0 + j.val, by omega⟩ : Fin 3072)) = P.bg (ix1 j)
  bz : ∀ j : Fin 1024, x5 (ix2 (0 : Fin 1) (⟨1024 + j.val, by omega⟩ : Fin 3072)) = P.bz (ix1 j)
  br : ∀ j : Fin 1024, x5 (ix2 (0 : Fin 1) (⟨2048 + j.val, by omega⟩ : Fin 3072)) = P.br (ix1 j)
  uh : ∀ (k : Fin 256) (j : Fin 1024), x6 (ix2 k j) = P.uh (ix2 j k)
  wh : ∀ (l : Fin 1024) (j : Fin 1024), x7 (ix2 l j) = P.wh (ix2 j l)
  bh : ∀ j : Fin 1024, x8 (ix2 (0 : Fin 1) j) = P.bh (ix1 j)
  w4 : ∀ (j : Fin 1024) (q : Fin 256), x9 (ix2 j q) = P.w4 (ix2 q j)

/-- The magnitudes of the block's rows. -/
theorem blk_mag (x0 : Vec Ideal S512x256 .f32) (r : Fin 512) (k : Fin 256) :
    k0_pay2 (F := Ideal) x0 (ix2 r k) = mag (rowb x0 r) k := rfl

/-- The first state of the block's rows. -/
theorem blk_state (x0 : Vec Ideal S512x256 .f32) (x1 : Vec Ideal S256x1024 .bf16) (x2 : Vec Ideal S1x1024 .f32)
    (w0 : Mat 1024 256) (b0 : Vct 1024) (h1 : ∀ (k : Fin 256) (j : Fin 1024), x1 (ix2 k j) = w0 (ix2 j k))
    (h2 : ∀ j : Fin 1024, x2 (ix2 (0 : Fin 1) j) = b0 (ix1 j)) (r : Fin 512) (j : Fin 1024) :
    k0_pay3 (F := Ideal) x0 x1 x2 (ix2 r j) = state w0 b0 (rowb x0 r) j := by
  unfold k0_pay3
  show Ideal.tanh (FloatOps.matmul dot_S512x256_S256x1024_S512x1024_1_0_0_1_n_n none (k0_pay2 (F := Ideal) x0)
        (shapeCast S256x1024 x1 _) (constant S512x1024 .f32 0x00000000#32) (ix2 r j)
      + broadcastTo S512x1024 (shapeCast S1x1024 x2 _) _ (ix2 r j)) = _
  rw [shapeCast_self, shapeCast_self, matmul_rows_apply _ rfl rfl rfl rfl rfl rfl, broadcastTo_1b_ab_apply, h2]
  unfold state
  refine congrArg Ideal.tanh (congrArg₂ _ (Finset.sum_congr rfl fun k _ => ?_) rfl)
  rw [blk_mag, h1]

/-- Column `j'` of the fused gates' product, when that column of the fused operands holds row `j` of `(u, w, b)`. -/
theorem blk_gate (x0 : Vec Ideal S512x256 .f32) (x1 : Vec Ideal S256x1024 .bf16) (x2 : Vec Ideal S1x1024 .f32)
    (x3 : Vec Ideal S256x3072 .bf16) (x4 : Vec Ideal S1024x3072 .bf16) (x5 : Vec Ideal S1x3072 .f32)
    (w0 : Mat 1024 256) (b0 : Vct 1024) (h1 : ∀ (k : Fin 256) (j : Fin 1024), x1 (ix2 k j) = w0 (ix2 j k))
    (h2 : ∀ j : Fin 1024, x2 (ix2 (0 : Fin 1) j) = b0 (ix1 j))
    (u : Mat 1024 256) (w : Mat 1024 1024) (b : Vct 1024) (j' : Fin 3072) (j : Fin 1024)
    (hu : ∀ k : Fin 256, x3 (ix2 k j') = u (ix2 j k)) (hw : ∀ l : Fin 1024, x4 (ix2 l j') = w (ix2 j l))
    (hb : x5 (ix2 (0 : Fin 1) j') = b (ix1 j)) (r : Fin 512) :
    k0_pay4 (F := Ideal) x0 x1 x2 x3 x4 x5 (ix2 r j') = gate u w b (rowb x0 r) (state w0 b0 (rowb x0 r)) j := by
  unfold k0_pay4
  show Ideal.tanh ((FloatOps.matmul dot_S512x256_S256x3072_S512x3072_1_0_0_1_n_n none (k0_pay2 (F := Ideal) x0)
          (shapeCast S256x3072 x3 _) (constant S512x3072 .f32 0x00000000#32) (ix2 r j')
        + FloatOps.matmul dot_S512x1024_S1024x3072_S512x3072_1_0_0_1_n_n none (k0_pay3 (F := Ideal) x0 x1 x2)
          (shapeCast S1024x3072 x4 _) (constant S512x3072 .f32 0x00000000#32) (ix2 r j'))
      + broadcastTo S512x3072 (shapeCast S1x3072 x5 _) _ (ix2 r j')) = _
  rw [shapeCast_self, shapeCast_self, shapeCast_self, matmul_rows_apply _ rfl rfl rfl rfl rfl rfl,
    matmul_rows_apply _ rfl rfl rfl rfl rfl rfl, broadcastTo_1b_ab_apply, hb]
  unfold gate
  refine congrArg Ideal.tanh (congrArg₂ _ (congrArg₂ _ (Finset.sum_congr rfl fun k _ => ?_) (Finset.sum_congr rfl fun l _ => ?_)) rfl)
  · rw [blk_mag, hu]
  · rw [blk_state x0 x1 x2 w0 b0 h1 h2, hw]

/-- A column band of the fused gates' result: entry `(r, j)` of the band at offset `o` is entry `(r, o + j)`. -/
theorem band_apply (o : Nat) (ho : o + 1024 ≤ 3072) (v : FVec Ideal S512x3072 .f32) (hs : S512x3072.Slices ![0, o] S512x1024)
    (r : Fin 512) (j : Fin 1024) :
    extractStridedSlice S512x1024 ![0, o] v hs (ix2 r j) = v (ix2 r (⟨o + j.val, by omega⟩ : Fin 3072)) :=
  extractStridedSlice_apply _ v hs _ _ fun a => match a with
    | ⟨0, _⟩ => (Nat.zero_add _).symm
    | ⟨1, _⟩ => rfl

section Block

variable (P : Params) (x0 : Vec Ideal S512x256 .f32) (x1 : Vec Ideal S256x1024 .bf16) (x2 : Vec Ideal S1x1024 .f32)
  (x3 : Vec Ideal S256x3072 .bf16) (x4 : Vec Ideal S1024x3072 .bf16) (x5 : Vec Ideal S1x3072 .f32)
  (x6 : Vec Ideal S256x1024 .bf16) (x7 : Vec Ideal S1024x1024 .bf16) (x8 : Vec Ideal S1x1024 .f32)
  (x9 : Vec Ideal S1024x256 .bf16) (L : Loads P x1 x2 x3 x4 x5 x6 x7 x8 x9)

/-- The candidate's state-side weight is loaded as it is. -/
theorem blk_wh : k0_pay9 (F := Ideal) x7 = x7 := by
  unfold k0_pay9
  exact shapeCast_self x7 _

/-- The tail of the body on any five intermediate values: the candidate, the highway mix and the last product. -/
theorem blk_last (v26 v29 : FVec Ideal S512x1024 .f32) (v31 : FVec Ideal S512x1024 .bf16) (v34 : FVec Ideal S512x1024 .f32)
    (v36 : FVec Ideal S1024x1024 .bf16) (r : Fin 512) (q : Fin 256) :
    k0_pay1 (F := Ideal) v26 v29 v31 v34 v36 (constant S512x1024 .f32 0x00000000#32) x8 x9 (ix2 r q)
      = ∑ j : Fin 1024, (v29 (ix2 r j) + (unit - v26 (ix2 r j))
          * Ideal.tanh ((v34 (ix2 r j) + ∑ l : Fin 1024, v31 (ix2 r l) * v36 (ix2 l j)) + x8 (ix2 (0 : Fin 1) j))) * x9 (ix2 j q) := by
  unfold k0_pay1
  show FloatOps.matmul dot_S512x1024_S1024x256_S512x256_1_0_0_1_n_n none
      (truncf .bf16 (addf v29 (mulf (subf (broadcast S512x1024 (Scalar.ofBits .f32 0x3F800000#32)) v26)
        (tanh (addf (addf v34 (matmul dot_S512x1024_S1024x1024_S512x1024_1_0_0_1_n_n none v31 v36
            (constant S512x1024 .f32 0x00000000#32)))
          (broadcastTo S512x1024 (shapeCast S1x1024 x8 _) _))))) _)
      (shapeCast S1024x256 x9 _) (constant S512x256 .f32 0x00000000#32) (ix2 r q) = _
  rw [shapeCast_self x8, shapeCast_self x9, matmul_rows_apply _ rfl rfl rfl rfl rfl rfl]
  refine Finset.sum_congr rfl fun j _ => ?_
  refine congrArg (· * x9 (ix2 j q)) ?_
  show v29 (ix2 r j) + (Ideal.ofBits .f32 0x3F800000#32 - v26 (ix2 r j))
        * Ideal.tanh ((v34 (ix2 r j) + FloatOps.matmul dot_S512x1024_S1024x1024_S512x1024_1_0_0_1_n_n none v31 v36
            (constant S512x1024 .f32 0x00000000#32) (ix2 r j))
          + broadcastTo S512x1024 x8 _ (ix2 r j)) = _
  rw [matmul_rows_apply _ rfl rfl rfl rfl rfl rfl, broadcastTo_1b_ab_apply]
  rfl

include L

/-- The first band of the fused gates is the first gate. -/
theorem blk_g (r : Fin 512) (j : Fin 1024) :
    k0_pay5 (F := Ideal) x0 x1 x2 x3 x4 x5 (ix2 r j)
      = gate P.ug P.wg P.bg (rowb x0 r) (state P.w0 P.b0 (rowb x0 r)) j := by
  unfold k0_pay5
  show extractStridedSlice S512x1024 ![0, 0] (k0_pay4 (F := Ideal) x0 x1 x2 x3 x4 x5) _ (ix2 r j) = _
  rw [band_apply 0 (by omega)]
  exact blk_gate x0 x1 x2 x3 x4 x5 P.w0 P.b0 L.w0 L.b0 P.ug P.wg P.bg _ j (fun k => L.ug k j) (fun l => L.wg l j) (L.bg j) r

/-- The second band times the first state. -/
theorem blk_zs (r : Fin 512) (j : Fin 1024) :
    k0_pay6 (F := Ideal) x0 x1 x2 x3 x4 x5 (ix2 r j)
      = gate P.uz P.wz P.bz (rowb x0 r) (state P.w0 P.b0 (rowb x0 r)) j * state P.w0 P.b0 (rowb x0 r) j := by
  unfold k0_pay6
  show extractStridedSlice S512x1024 ![0, 1024] (k0_pay4 (F := Ideal) x0 x1 x2 x3 x4 x5) _ (ix2 r j)
      * k0_pay3 (F := Ideal) x0 x1 x2 (ix2 r j) = _
  rw [band_apply 1024 (by omega), blk_state x0 x1 x2 P.w0 P.b0 L.w0 L.b0,
    blk_gate x0 x1 x2 x3 x4 x5 P.w0 P.b0 L.w0 L.b0 P.uz P.wz P.bz _ j (fun k => L.uz k j) (fun l => L.wz l j) (L.bz j) r]

/-- The first state times the third band. -/
theorem blk_sr (r : Fin 512) (j : Fin 1024) :
    k0_pay7 (F := Ideal) x0 x1 x2 x3 x4 x5 (ix2 r j)
      = state P.w0 P.b0 (rowb x0 r) j * gate P.ur P.wr P.br (rowb x0 r) (state P.w0 P.b0 (rowb x0 r)) j := by
  unfold k0_pay7
  show k0_pay3 (F := Ideal) x0 x1 x2 (ix2 r j)
      * extractStridedSlice S512x1024 ![0, 2048] (k0_pay4 (F := Ideal) x0 x1 x2 x3 x4 x5) _ (ix2 r j) = _
  rw [band_apply 2048 (by omega), blk_state x0 x1 x2 P.w0 P.b0 L.w0 L.b0,
    blk_gate x0 x1 x2 x3 x4 x5 P.w0 P.b0 L.w0 L.b0 P.ur P.wr P.br _ j (fun k => L.ur k j) (fun l => L.wr l j) (L.br j) r]

/-- The input's part of the candidate. -/
theorem blk_xh (r : Fin 512) (j : Fin 1024) :
    k0_pay8 (F := Ideal) x0 x6 (ix2 r j) = ∑ k : Fin 256, mag (rowb x0 r) k * P.uh (ix2 j k) := by
  unfold k0_pay8
  show FloatOps.matmul dot_S512x256_S256x1024_S512x1024_1_0_0_1_n_n none (k0_pay2 (F := Ideal) x0)
      (shapeCast S256x1024 x6 _) (constant S512x1024 .f32 0x00000000#32) (ix2 r j) = _
  rw [shapeCast_self, matmul_rows_apply _ rfl rfl rfl rfl rfl rfl]
  refine Finset.sum_congr rfl fun k _ => ?_
  rw [blk_mag, L.uh]

/-- THE BLOCK'S RESULT at `(r, q)` is the layer's output row of row `r` of the block, at `q`. -/
theorem blk_out (r : Fin 512) (q : Fin 256) :
    k0_pay1 (F := Ideal) (k0_pay5 x0 x1 x2 x3 x4 x5) (k0_pay6 x0 x1 x2 x3 x4 x5) (k0_pay7 x0 x1 x2 x3 x4 x5) (k0_pay8 x0 x6)
        (k0_pay9 x7) (constant S512x1024 .f32 0x00000000#32) x8 x9 (ix2 r q)
      = out P (rowb x0 r) q := by
  rw [blk_last, blk_wh]
  unfold out mixed
  refine Finset.sum_congr rfl fun j _ => ?_
  rw [blk_zs P x0 x1 x2 x3 x4 x5 x6 x7 x8 x9 L, blk_g P x0 x1 x2 x3 x4 x5 x6 x7 x8 x9 L, blk_xh P x0 x1 x2 x3 x4 x5 x6 x7 x8 x9 L,
    L.bh, L.w4, Finset.sum_congr rfl fun l _ => congrArg (· * x7 (ix2 l j)) (blk_sr P x0 x1 x2 x3 x4 x5 x6 x7 x8 x9 L r l),
    Finset.sum_congr rfl fun l _ => congrArg (_ * ·) (L.wh l j)]
  rfl

end Block

end Cert.KernelIdeal.BlockHighway

end
-- ==== Proof.LibThreePieces.lean ====
/-
  A concatenation of a few pieces, read at an index, and a host operation of three operands read at its result.

  `cols_piece`: pieces that are matrices with the same `n` rows, set side by side (concatenated along the columns); entry
  `(p, o + j)` of the result, where `o` is the total width of the pieces before piece `k` and `j` a column of piece `k`,
  is entry `(p, j)` of piece `k`.
  `vec_piece`: the same for vectors set end to end.
  `nary3_result`: a host operation of THREE literal operands gives, at its result buffer, its function of the operands'
  contents each read at its own reference (so that the operands' own values can be read in turn); the companion of
  the library's four-operand form, with the tactic `after_results3` that uses it.
-/
import Idealize.ShloMosaic.Lib.ValueIdx
import Idealize.ShloMosaic.Lib.Pipeline.Value
import Idealize.ShloMosaic.Lib.StableHlo.Run

noncomputable section

namespace Cert.LibThreePieces

open Idealize.ShloMosaic Idealize.ShloMosaic.ValueIdx

section Concatenation

variable {α : Type}

/-- Matrices with `n` rows side by side: entry `(p, o + j)` is entry `(p, j)` of piece `k`, when the pieces before it
    have total width `o`. -/
theorem cols_piece {n w W : ℕ} (xs : List ((s : Shape) × (s.Idx → α)))
    (h : Shape.Concatenates (xs.map (·.1)) ⟨2, ![n, W]⟩ (1 : Fin 2)) (k : ℕ) (hk : k < xs.length)
    (X : (⟨2, ![n, w]⟩ : Shape).Idx → α) (hX : xs[k] = ⟨⟨2, ![n, w]⟩, X⟩) (o : ℕ)
    (hpre : (((xs.take k).map (·.1)).map fun s => if h : s.rank = 2 then s.size ((1 : Fin 2).cast h.symm) else 0).sum = o)
    (p : Fin n) (j : Fin w) (hj : o + j.val < W) :
    concatenate ⟨2, ![n, W]⟩ 1 xs h (ix2 p (⟨o + j.val, hj⟩ : Fin W)) = X (ix2 p j) :=
  concatenate_apply_piece (t := ⟨2, ![n, W]⟩) (1 : Fin 2) xs h (ix2 p (⟨o + j.val, hj⟩ : Fin W)) k hk _ X hX rfl o hpre (ix2 p j)
    (fun b hb => match b, hb with
      | ⟨0, _⟩, _ => rfl
      | ⟨1, _⟩, hb => absurd rfl hb) rfl

/-- Vectors end to end: entry `o + j` is entry `j` of piece `k`, when the pieces before it have total length `o`. -/
theorem vec_piece {w W : ℕ} (xs : List ((s : Shape) × (s.Idx → α)))
    (h : Shape.Concatenates (xs.map (·.1)) ⟨1, ![W]⟩ (0 : Fin 1)) (k : ℕ) (hk : k < xs.length)
    (X : (⟨1, ![w]⟩ : Shape).Idx → α) (hX : xs[k] = ⟨⟨1, ![w]⟩, X⟩) (o : ℕ)
    (hpre : (((xs.take k).map (·.1)).map fun s => if h : s.rank = 1 then s.size ((0 : Fin 1).cast h.symm) else 0).sum = o)
    (j : Fin w) (hj : o + j.val < W) :
    concatenate ⟨1, ![W]⟩ 0 xs h (ix1 (⟨o + j.val, hj⟩ : Fin W)) = X (ix1 j) :=
  concatenate_apply_piece (t := ⟨1, ![W]⟩) (0 : Fin 1) xs h (ix1 (⟨o + j.val, hj⟩ : Fin W)) k hk _ X hX rfl o hpre (ix1 j)
    (fun b hb => match b, hb with
      | ⟨0, _⟩, hb => absurd rfl hb) rfl

end Concatenation

section ThreeOperands

open Idealize.ShloMosaic.StableHlo

variable {τ : Topo} {sig : RefSig} {Val : EltTy → Type} {x a b y : Ref sig .tc}

/-- A host operation over a LITERAL family of three references: its result with each operand's contents at its own
    reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end ThreeOperands

/-- The library's walk over a literal line of host operations, with the three-operand form tried before the general one. -/
macro "after_results3" : tactic =>
  `(tactic| (simp only [StableHlo.after_cons, StableHlo.after_nil]
             repeat (first
               | rw [StableHlo.nullary_result] | rw [StableHlo.unary_result] | rw [StableHlo.binary_result]
               | rw [StableHlo.reshape_result] | rw [Cert.LibThreePieces.nary3_result] | rw [StableHlo.nary_result]
               | (rw [StableHlo.nullary_result_ne]; rotate_left; decide)
               | (rw [StableHlo.unary_result_ne]; rotate_left; decide)
               | (rw [StableHlo.binary_result_ne]; rotate_left; decide)
               | (rw [StableHlo.reshape_result_ne]; rotate_left; decide)
               | (rw [StableHlo.nary_result_ne]; rotate_left; decide))))

end Cert.LibThreePieces

end
-- ==== Proof.KernelOperands.lean ====
/-
  What the region's operand arrays hold, in terms of the launched weights.

  The host line before the region only re-lays the weights: each weight matrix is converted (the identity on extended
  reals) and transposed; the three gates' transposed weights are set side by side, their biases end to end, and each
  bias vector becomes a one-row matrix. Read at an index, every operand the kernel loads is an entry of a launched
  weight: the facts `Cert.KernelIdeal.BlockHighway.Loads` asks for.
-/
import proofs.«149896_j81389630259799_2_alg».proof.Proof.KernelIdealFrame
import proofs.«149896_j81389630259799_2_alg».proof.Proof.BlockHighway
import proofs.«149896_j81389630259799_2_alg».proof.Proof.LibThreePieces
import Idealize.ShloMosaic.Lib.ValueLayout
import Idealize.ShloMosaic.Lib.Pipeline.Value
import Idealize.ShloMosaic.Lib.StableHlo.Run

set_option maxRecDepth 16384

noncomputable section

namespace Cert.KernelIdeal.Operands

open Cert.KernelIdeal Cert.KernelIdeal.Gen Cert.KernelIdeal.Frm Cert.KernelIdeal.BlockHighway Cert.Highway Cert.LibThreePieces
open Idealize.ShloMosaic Idealize.ShloMosaic.TcCoe Idealize.ShloMosaic.ValueIdx Idealize.SL.Sem

variable (m : (ℓ : Loc nD τ sig) → Buf (Elt Ideal) ℓ)

/-- The layer's weights as launched on core `c`. -/
def params (c : Dev nD) : Params where
  w0 := m ((c : Thread nD τ).loc main_arg1)
  b0 := m ((c : Thread nD τ).loc main_arg2)
  ug := m ((c : Thread nD τ).loc main_arg3)
  wg := m ((c : Thread nD τ).loc main_arg4)
  bg := m ((c : Thread nD τ).loc main_arg5)
  uz := m ((c : Thread nD τ).loc main_arg6)
  wz := m ((c : Thread nD τ).loc main_arg7)
  bz := m ((c : Thread nD τ).loc main_arg8)
  ur := m ((c : Thread nD τ).loc main_arg9)
  wr := m ((c : Thread nD τ).loc main_arg10)
  br := m ((c : Thread nD τ).loc main_arg11)
  uh := m ((c : Thread nD τ).loc main_arg12)
  wh := m ((c : Thread nD τ).loc main_arg13)
  bh := m ((c : Thread nD τ).loc main_arg14)
  w4 := m ((c : Thread nD τ).loc main_arg27)

/-! ## Each operand array as the host line leaves it -/

theorem V_w0 (c : Dev nD) : @Eq (S256x1024.Idx → EReal) (V m c main_v1) (transpose S256x1024 [1, 0] (truncf (F := Ideal) (s := S1024x256) (φ := .f32) .bf16 (m ((c : Thread nD τ).loc main_arg1)) bitsLt_bf16_f32) transposes_S1024x256_S256x1024_1_0) := by
  dsimp only [V, hostOps0]; after_results3 <;> rfl
theorem V_uh (c : Dev nD) : @Eq (S256x1024.Idx → EReal) (V m c main_v3) (transpose S256x1024 [1, 0] (truncf (F := Ideal) (s := S1024x256) (φ := .f32) .bf16 (m ((c : Thread nD τ).loc main_arg12)) bitsLt_bf16_f32) transposes_S1024x256_S256x1024_1_0) := by
  dsimp only [V, hostOps0]; after_results3 <;> rfl
theorem V_wh (c : Dev nD) : @Eq (S1024x1024.Idx → EReal) (V m c main_v5) (transpose S1024x1024 [1, 0] (truncf (F := Ideal) (s := S1024x1024) (φ := .f32) .bf16 (m ((c : Thread nD τ).loc main_arg13)) bitsLt_bf16_f32) transposes_S1024x1024_S1024x1024_1_0) := by
  dsimp only [V, hostOps0]; after_results3 <;> rfl
theorem V_w4 (c : Dev nD) : @Eq (S1024x256.Idx → EReal) (V m c main_v7) (transpose S1024x256 [1, 0] (truncf (F := Ideal) (s := S256x1024) (φ := .f32) .bf16 (m ((c : Thread nD τ).loc main_arg27)) bitsLt_bf16_f32) transposes_S256x1024_S1024x256_1_0) := by
  dsimp only [V, hostOps0]; after_results3 <;> rfl
theorem V_b0 (c : Dev nD) : @Eq (S1x1024.Idx → EReal) (V m c main_v24) (shapeCast (s := S1024) (α := EReal) S1x1024 (m ((c : Thread nD τ).loc main_arg2)) shapeCasts_S1024_S1x1024) := by
  dsimp only [V, hostOps0]; after_results3 <;> rfl
theorem V_bh (c : Dev nD) : @Eq (S1x1024.Idx → EReal) (V m c main_v25) (shapeCast (s := S1024) (α := EReal) S1x1024 (m ((c : Thread nD τ).loc main_arg14)) shapeCasts_S1024_S1x1024) := by
  dsimp only [V, hostOps0]; after_results3 <;> rfl
set_option maxHeartbeats 2000000 in
theorem V_ugzr (c : Dev nD) : @Eq (S256x3072.Idx → EReal) (V m c main_v14)
    (concatenate (α := EReal) S256x3072 1 [⟨S256x1024, (transpose S256x1024 [1, 0] (truncf (F := Ideal) (s := S1024x256) (φ := .f32) .bf16 (m ((c : Thread nD τ).loc main_arg3)) bitsLt_bf16_f32) transposes_S1024x256_S256x1024_1_0)⟩,
        ⟨S256x1024, (transpose S256x1024 [1, 0] (truncf (F := Ideal) (s := S1024x256) (φ := .f32) .bf16 (m ((c : Thread nD τ).loc main_arg6)) bitsLt_bf16_f32) transposes_S1024x256_S256x1024_1_0)⟩,
        ⟨S256x1024, (transpose S256x1024 [1, 0] (truncf (F := Ideal) (s := S1024x256) (φ := .f32) .bf16 (m ((c : Thread nD τ).loc main_arg9)) bitsLt_bf16_f32) transposes_S1024x256_S256x1024_1_0)⟩]
      concatenates_S256x1024_S256x1024_S256x1024_S256x3072_d1) := by
  dsimp only [V, hostOps0]; after_results3 <;> rfl
set_option maxHeartbeats 2000000 in
theorem V_wgzr (c : Dev nD) : @Eq (S1024x3072.Idx → EReal) (V m c main_v21)
    (concatenate (α := EReal) S1024x3072 1 [⟨S1024x1024, (transpose S1024x1024 [1, 0] (truncf (F := Ideal) (s := S1024x1024) (φ := .f32) .bf16 (m ((c : Thread nD τ).loc main_arg4)) bitsLt_bf16_f32) transposes_S1024x1024_S1024x1024_1_0)⟩,
        ⟨S1024x1024, (transpose S1024x1024 [1, 0] (truncf (F := Ideal) (s := S1024x1024) (φ := .f32) .bf16 (m ((c : Thread nD τ).loc main_arg7)) bitsLt_bf16_f32) transposes_S1024x1024_S1024x1024_1_0)⟩,
        ⟨S1024x1024, (transpose S1024x1024 [1, 0] (truncf (F := Ideal) (s := S1024x1024) (φ := .f32) .bf16 (m ((c : Thread nD τ).loc main_arg10)) bitsLt_bf16_f32) transposes_S1024x1024_S1024x1024_1_0)⟩]
      concatenates_S1024x1024_S1024x1024_S1024x1024_S1024x3072_d1) := by
  dsimp only [V, hostOps0]; after_results3 <;> rfl
set_option maxHeartbeats 2000000 in
theorem V_bgzr (c : Dev nD) : @Eq (S1x3072.Idx → EReal) (V m c main_v23)
    (shapeCast (s := S3072) (α := EReal) S1x3072 (concatenate (α := EReal) S3072 0 [⟨S1024, (m ((c : Thread nD τ).loc main_arg5))⟩,
        ⟨S1024, (m ((c : Thread nD τ).loc main_arg8))⟩, ⟨S1024, (m ((c : Thread nD τ).loc main_arg11))⟩]
      concatenates_S1024_S1024_S1024_S3072_d0) shapeCasts_S3072_S1x3072) := by
  dsimp only [V, hostOps0]; after_results3 <;> rfl

/-! ## Read at an index -/

/-- THE OPERANDS hold the launched weights' entries, as the block's computation needs them. -/
theorem loads (c : Dev nD) :
    Loads (params m c) (V m c main_v1 : S256x1024.Idx → EReal) (V m c main_v24 : S1x1024.Idx → EReal)
      (V m c main_v14 : S256x3072.Idx → EReal) (V m c main_v21 : S1024x3072.Idx → EReal) (V m c main_v23 : S1x3072.Idx → EReal)
      (V m c main_v3 : S256x1024.Idx → EReal) (V m c main_v5 : S1024x1024.Idx → EReal) (V m c main_v25 : S1x1024.Idx → EReal)
      (V m c main_v7 : S1024x256.Idx → EReal) where
  w0 k j := (congrFun (V_w0 m c) _).trans (transpose_ix2_apply _ _ k j)
  b0 j := (congrFun (V_b0 m c) _).trans (shapeCast_a_1a_apply _ _ 0 j)
  ug k j := by
    refine (congrFun (V_ugzr m c) _).trans ?_
    refine (cols_piece _ _ 0 ?_ _ rfl 0 rfl k j _).trans (transpose_ix2_apply _ _ k j)
    exact (by decide : (0 : ℕ) < 3)
  uz k j := by
    refine (congrFun (V_ugzr m c) _).trans ?_
    refine (cols_piece _ _ 1 ?_ _ rfl 1024 rfl k j _).trans (transpose_ix2_apply _ _ k j)
    exact (by decide : (1 : ℕ) < 3)
  ur k j := by
    refine (congrFun (V_ugzr m c) _).trans ?_
    refine (cols_piece _ _ 2 ?_ _ rfl 2048 rfl k j _).trans (transpose_ix2_apply _ _ k j)
    exact (by decide : (2 : ℕ) < 3)
  wg l j := by
    refine (congrFun (V_wgzr m c) _).trans ?_
    refine (cols_piece _ _ 0 ?_ _ rfl 0 rfl l j _).trans (transpose_ix2_apply _ _ l j)
    exact (by decide : (0 : ℕ) < 3)
  wz l j := by
    refine (congrFun (V_wgzr m c) _).trans ?_
    refine (cols_piece _ _ 1 ?_ _ rfl 1024 rfl l j _).trans (transpose_ix2_apply _ _ l j)
    exact (by decide : (1 : ℕ) < 3)
  wr l j := by
    refine (congrFun (V_wgzr m c) _).trans ?_
    refine (cols_piece _ _ 2 ?_ _ rfl 2048 rfl l j _).trans (transpose_ix2_apply _ _ l j)
    exact (by decide : (2 : ℕ) < 3)
  bg j := by
    refine (congrFun (V_bgzr m c) _).trans ?_
    refine (shapeCast_a_1a_apply _ _ 0 _).trans (vec_piece _ _ 0 ?_ _ rfl 0 rfl j _)
    exact (by decide : (0 : ℕ) < 3)
  bz j := by
    refine (congrFun (V_bgzr m c) _).trans ?_
    refine (shapeCast_a_1a_apply _ _ 0 _).trans (vec_piece _ _ 1 ?_ _ rfl 1024 rfl j _)
    exact (by decide : (1 : ℕ) < 3)
  br j := by
    refine (congrFun (V_bgzr m c) _).trans ?_
    refine (shapeCast_a_1a_apply _ _ 0 _).trans (vec_piece _ _ 2 ?_ _ rfl 2048 rfl j _)
    exact (by decide : (2 : ℕ) < 3)
  uh k j := (congrFun (V_uh m c) _).trans (transpose_ix2_apply _ _ k j)
  wh l j := (congrFun (V_wh m c) _).trans (transpose_ix2_apply _ _ l j)
  bh j := (congrFun (V_bh m c) _).trans (shapeCast_a_1a_apply _ _ 0 j)
  w4 j q := (congrFun (V_w4 m c) _).trans (transpose_ix2_apply _ _ j q)

end Cert.KernelIdeal.Operands

end
-- ==== Proof.KernelHighway.lean ====
/-
  The kernel's result array is the layer on every row.

  Grid point `t` of the 32 stages rows `512 t` to `512 t + 511` of the input and writes back the same rows of the
  result; every other operand is staged whole (its one block is the whole array). So what point `t` writes back is
  block `t` of the layer applied to every row of the launched input with the launched weights, and the 32 blocks cover
  the result array: row `r` lies in block `r / 512`.
-/
import proofs.«149896_j81389630259799_2_alg».proof.Proof.KernelOperands
import Idealize.ShloMosaic.Lib.Pipeline.Value

set_option maxRecDepth 16384

noncomputable section

namespace Cert.KernelIdeal.Whole

open Cert.KernelIdeal Cert.KernelIdeal.Gen Cert.KernelIdeal.Frm Cert.KernelIdeal.BlockHighway Cert.KernelIdeal.Operands Cert.Highway
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

theorem hz : (![0, 0] : Fin 2 → Nat) = fun _ => 0 := funext fun a => by fin_cases a <;> rfl

/-! ## The index maps, decided over the 32 grid points -/

/-- The input's and the result's block at point `t` is block `t` of the rows, the one block of the columns. -/
theorem idx_w0 : ∀ t : Fin cfg0.N, win0_0.index t (0 : Fin 2) = t.val ∧ win0_0.index t (1 : Fin 2) = 0 :=
  (by decide +kernel : ∀ t : Fin grid0.N, _)
theorem idx_w10 : ∀ t : Fin cfg0.N, win0_10.index t (0 : Fin 2) = t.val ∧ win0_10.index t (1 : Fin 2) = 0 :=
  (by decide +kernel : ∀ t : Fin grid0.N, _)
/-! Every other operand's block is the block at the origin. -/
theorem idx_w1 : ∀ t : Fin cfg0.N, win0_1.index t (0 : Fin 2) = 0 ∧ win0_1.index t (1 : Fin 2) = 0 :=
  (by decide +kernel : ∀ t : Fin grid0.N, _)
theorem idx_w2 : ∀ t : Fin cfg0.N, win0_2.index t (0 : Fin 2) = 0 ∧ win0_2.index t (1 : Fin 2) = 0 :=
  (by decide +kernel : ∀ t : Fin grid0.N, _)
theorem idx_w3 : ∀ t : Fin cfg0.N, win0_3.index t (0 : Fin 2) = 0 ∧ win0_3.index t (1 : Fin 2) = 0 :=
  (by decide +kernel : ∀ t : Fin grid0.N, _)
theorem idx_w4 : ∀ t : Fin cfg0.N, win0_4.index t (0 : Fin 2) = 0 ∧ win0_4.index t (1 : Fin 2) = 0 :=
  (by decide +kernel : ∀ t : Fin grid0.N, _)
theorem idx_w5 : ∀ t : Fin cfg0.N, win0_5.index t (0 : Fin 2) = 0 ∧ win0_5.index t (1 : Fin 2) = 0 :=
  (by decide +kernel : ∀ t : Fin grid0.N, _)
theorem idx_w6 : ∀ t : Fin cfg0.N, win0_6.index t (0 : Fin 2) = 0 ∧ win0_6.index t (1 : Fin 2) = 0 :=
  (by decide +kernel : ∀ t : Fin grid0.N, _)
theorem idx_w7 : ∀ t : Fin cfg0.N, win0_7.index t (0 : Fin 2) = 0 ∧ win0_7.index t (1 : Fin 2) = 0 :=
  (by decide +kernel : ∀ t : Fin grid0.N, _)
theorem idx_w8 : ∀ t : Fin cfg0.N, win0_8.index t (0 : Fin 2) = 0 ∧ win0_8.index t (1 : Fin 2) = 0 :=
  (by decide +kernel : ∀ t : Fin grid0.N, _)
theorem idx_w9 : ∀ t : Fin cfg0.N, win0_9.index t (0 : Fin 2) = 0 ∧ win0_9.index t (1 : Fin 2) = 0 :=
  (by decide +kernel : ∀ t : Fin grid0.N, _)

/-! ## An operand staged whole is found whole -/

theorem blk1 (c : Dev nD) (t : Fin cfg0.N) : (iblk m c 1 t : S256x1024.Idx → EReal) = (V m c main_v1 : S256x1024.Idx → EReal) := by
  obtain ⟨e0, e1⟩ := idx_w1 t
  funext y
  show (V m c main_v1 : S256x1024.Idx → EReal) (((cfg0.win 1).blk t).view.emb y) = _
  refine congrArg (V m c main_v1 : S256x1024.Idx → EReal) (funext fun a => Fin.ext ?_)
  match a with
  | ⟨0, _⟩ => show win0_1.index t (0 : Fin 2) * 256 + 1 * (y 0).val = (y 0).val; omega
  | ⟨1, _⟩ => show win0_1.index t (1 : Fin 2) * 1024 + 1 * (y 1).val = (y 1).val; omega
theorem blk2 (c : Dev nD) (t : Fin cfg0.N) : (iblk m c 2 t : S1x1024.Idx → EReal) = (V m c main_v24 : S1x1024.Idx → EReal) := by
  obtain ⟨e0, e1⟩ := idx_w2 t
  funext y
  show (V m c main_v24 : S1x1024.Idx → EReal) (((cfg0.win 2).blk t).view.emb y) = _
  refine congrArg (V m c main_v24 : S1x1024.Idx → EReal) (funext fun a => Fin.ext ?_)
  match a with
  | ⟨0, _⟩ => show win0_2.index t (0 : Fin 2) * 1 + 1 * (y 0).val = (y 0).val; omega
  | ⟨1, _⟩ => show win0_2.index t (1 : Fin 2) * 1024 + 1 * (y 1).val = (y 1).val; omega
theorem blk3 (c : Dev nD) (t : Fin cfg0.N) : (iblk m c 3 t : S256x3072.Idx → EReal) = (V m c main_v14 : S256x3072.Idx → EReal) := by
  obtain ⟨e0, e1⟩ := idx_w3 t
  funext y
  show (V m c main_v14 : S256x3072.Idx → EReal) (((cfg0.win 3).blk t).view.emb y) = _
  refine congrArg (V m c main_v14 : S256x3072.Idx → EReal) (funext fun a => Fin.ext ?_)
  match a with
  | ⟨0, _⟩ => show win0_3.index t (0 : Fin 2) * 256 + 1 * (y 0).val = (y 0).val; omega
  | ⟨1, _⟩ => show win0_3.index t (1 : Fin 2) * 3072 + 1 * (y 1).val = (y 1).val; omega
theorem blk4 (c : Dev nD) (t : Fin cfg0.N) : (iblk m c 4 t : S1024x3072.Idx → EReal) = (V m c main_v21 : S1024x3072.Idx → EReal) := by
  obtain ⟨e0, e1⟩ := idx_w4 t
  funext y
  show (V m c main_v21 : S1024x3072.Idx → EReal) (((cfg0.win 4).blk t).view.emb y) = _
  refine congrArg (V m c main_v21 : S1024x3072.Idx → EReal) (funext fun a => Fin.ext ?_)
  match a with
  | ⟨0, _⟩ => show win0_4.index t (0 : Fin 2) * 1024 + 1 * (y 0).val = (y 0).val; omega
  | ⟨1, _⟩ => show win0_4.index t (1 : Fin 2) * 3072 + 1 * (y 1).val = (y 1).val; omega
theorem blk5 (c : Dev nD) (t : Fin cfg0.N) : (iblk m c 5 t : S1x3072.Idx → EReal) = (V m c main_v23 : S1x3072.Idx → EReal) := by
  obtain ⟨e0, e1⟩ := idx_w5 t
  funext y
  show (V m c main_v23 : S1x3072.Idx → EReal) (((cfg0.win 5).blk t).view.emb y) = _
  refine congrArg (V m c main_v23 : S1x3072.Idx → EReal) (funext fun a => Fin.ext ?_)
  match a with
  | ⟨0, _⟩ => show win0_5.index t (0 : Fin 2) * 1 + 1 * (y 0).val = (y 0).val; omega
  | ⟨1, _⟩ => show win0_5.index t (1 : Fin 2) * 3072 + 1 * (y 1).val = (y 1).val; omega
theorem blk6 (c : Dev nD) (t : Fin cfg0.N) : (iblk m c 6 t : S256x1024.Idx → EReal) = (V m c main_v3 : S256x1024.Idx → EReal) := by
  obtain ⟨e0, e1⟩ := idx_w6 t
  funext y
  show (V m c main_v3 : S256x1024.Idx → EReal) (((cfg0.win 6).blk t).view.emb y) = _
  refine congrArg (V m c main_v3 : S256x1024.Idx → EReal) (funext fun a => Fin.ext ?_)
  match a with
  | ⟨0, _⟩ => show win0_6.index t (0 : Fin 2) * 256 + 1 * (y 0).val = (y 0).val; omega
  | ⟨1, _⟩ => show win0_6.index t (1 : Fin 2) * 1024 + 1 * (y 1).val = (y 1).val; omega
theorem blk7 (c : Dev nD) (t : Fin cfg0.N) : (iblk m c 7 t : S1024x1024.Idx → EReal) = (V m c main_v5 : S1024x1024.Idx → EReal) := by
  obtain ⟨e0, e1⟩ := idx_w7 t
  funext y
  show (V m c main_v5 : S1024x1024.Idx → EReal) (((cfg0.win 7).blk t).view.emb y) = _
  refine congrArg (V m c main_v5 : S1024x1024.Idx → EReal) (funext fun a => Fin.ext ?_)
  match a with
  | ⟨0, _⟩ => show win0_7.index t (0 : Fin 2) * 1024 + 1 * (y 0).val = (y 0).val; omega
  | ⟨1, _⟩ => show win0_7.index t (1 : Fin 2) * 1024 + 1 * (y 1).val = (y 1).val; omega
theorem blk8 (c : Dev nD) (t : Fin cfg0.N) : (iblk m c 8 t : S1x1024.Idx → EReal) = (V m c main_v25 : S1x1024.Idx → EReal) := by
  obtain ⟨e0, e1⟩ := idx_w8 t
  funext y
  show (V m c main_v25 : S1x1024.Idx → EReal) (((cfg0.win 8).blk t).view.emb y) = _
  refine congrArg (V m c main_v25 : S1x1024.Idx → EReal) (funext fun a => Fin.ext ?_)
  match a with
  | ⟨0, _⟩ => show win0_8.index t (0 : Fin 2) * 1 + 1 * (y 0).val = (y 0).val; omega
  | ⟨1, _⟩ => show win0_8.index t (1 : Fin 2) * 1024 + 1 * (y 1).val = (y 1).val; omega
theorem blk9 (c : Dev nD) (t : Fin cfg0.N) : (iblk m c 9 t : S1024x256.Idx → EReal) = (V m c main_v7 : S1024x256.Idx → EReal) := by
  obtain ⟨e0, e1⟩ := idx_w9 t
  funext y
  show (V m c main_v7 : S1024x256.Idx → EReal) (((cfg0.win 9).blk t).view.emb y) = _
  refine congrArg (V m c main_v7 : S1024x256.Idx → EReal) (funext fun a => Fin.ext ?_)
  match a with
  | ⟨0, _⟩ => show win0_9.index t (0 : Fin 2) * 1024 + 1 * (y 0).val = (y 0).val; omega
  | ⟨1, _⟩ => show win0_9.index t (1 : Fin 2) * 256 + 1 * (y 1).val = (y 1).val; omega

/-- The operands the body loads at point `t` hold the launched weights' entries. -/
theorem loads_blk (c : Dev nD) (t : Fin cfg0.N) :
    Loads (params m c) (iblk m c 1 t) (iblk m c 2 t) (iblk m c 3 t) (iblk m c 4 t) (iblk m c 5 t) (iblk m c 6 t) (iblk m c 7 t) (iblk m c 8 t) (iblk m c 9 t) := by
  rw [blk1 m c t, blk2 m c t, blk3 m c t, blk4 m c t, blk5 m c t, blk6 m c t, blk7 m c t, blk8 m c t, blk9 m c t]
  exact loads m c

/-! ## What a point writes back -/

/-- WHAT POINT `t` WRITES BACK is block `t` of the layer applied to every row of the launched input. -/
theorem flushed_eq (c : Dev nD) (t : Fin cfg0.N) :
    (dats m 0 c).flushed 10 t
      = ((cfg0.win 10).blk t).view.read (Elt Ideal) (whole (params m c) (m ((c : Thread nD τ).loc main_arg0))) := by
  show (cfg0.win 10).cut (grid0.coords t) ((dats m 0 c).after 10 t) = _
  rw [after0_10]
  unfold out0_10
  rw [View.canon_unit_zero hz]
  simp only [View.ld_unit_zero (S := S512x256) hz, View.ld_unit_zero (S := S256x1024) hz, View.ld_unit_zero (S := S1x1024) hz,
    View.ld_unit_zero (S := S256x3072) hz, View.ld_unit_zero (S := S1024x3072) hz, View.ld_unit_zero (S := S1x3072) hz,
    View.ld_unit_zero (S := S1024x1024) hz, View.ld_unit_zero (S := S1024x256) hz]
  obtain ⟨e00, e01⟩ := idx_w0 t
  obtain ⟨e100, e101⟩ := idx_w10 t
  have ht : t.val < 32 := lt_of_lt_of_eq t.isLt N_0
  refine funext fun (y : S512x256.Idx) => ?_
  obtain ⟨r, q, rfl⟩ : ∃ (r : Fin 512) (q : Fin 256), y = ix2 r q := ⟨y 0, y 1, eq_ix2 y⟩
  show k0_pay1 (F := Ideal) (k0_pay5 (iblk m c 0 t) (iblk m c 1 t) (iblk m c 2 t) (iblk m c 3 t) (iblk m c 4 t) (iblk m c 5 t)) (k0_pay6 (iblk m c 0 t) (iblk m c 1 t) (iblk m c 2 t) (iblk m c 3 t) (iblk m c 4 t) (iblk m c 5 t)) (k0_pay7 (iblk m c 0 t) (iblk m c 1 t) (iblk m c 2 t) (iblk m c 3 t) (iblk m c 4 t) (iblk m c 5 t)) (k0_pay8 (iblk m c 0 t) (iblk m c 6 t))
        (k0_pay9 (iblk m c 7 t)) (constant S512x1024 .f32 0x00000000#32) (iblk m c 8 t) (iblk m c 9 t) (ix2 r q)
      = whole (params m c) (m ((c : Thread nD τ).loc main_arg0)) (((cfg0.win 10).blk t).view.emb (ix2 r q))
  refine (blk_out (params m c) (iblk m c 0 t) (iblk m c 1 t) (iblk m c 2 t) (iblk m c 3 t) (iblk m c 4 t) (iblk m c 5 t) (iblk m c 6 t) (iblk m c 7 t) (iblk m c 8 t) (iblk m c 9 t) (loads_blk m c t) r q).trans ?_
  have hE : ((cfg0.win 10).blk t).view.emb (ix2 r q)
      = ix2 (⟨t.val * 512 + r.val, by have := r.isLt; omega⟩ : Fin 16384) q := by
    funext a
    apply Fin.ext
    match a with
    | ⟨0, _⟩ => show win0_10.index t (0 : Fin 2) * 512 + 1 * r.val = t.val * 512 + r.val; omega
    | ⟨1, _⟩ => show win0_10.index t (1 : Fin 2) * 256 + 1 * q.val = q.val; omega
  rw [hE, whole_apply]
  refine congrArg (fun f => out (params m c) f q) (funext fun k => ?_)
  show (V m c main_arg0 : S16384x256.Idx → EReal) (((cfg0.win 0).blk t).view.emb (ix2 r k)) = _
  rw [V_main_arg0]
  refine congrArg (m ((c : Thread nD τ).loc main_arg0) : S16384x256.Idx → EReal) (funext fun a => Fin.ext ?_)
  match a with
  | ⟨0, _⟩ => show win0_0.index t (0 : Fin 2) * 512 + 1 * r.val = t.val * 512 + r.val; omega
  | ⟨1, _⟩ => show win0_0.index t (1 : Fin 2) * 256 + 1 * k.val = k.val; omega

/-! ## The blocks cover the result -/

/-- An index of the result array is in point `t`'s block iff each coordinate is in the block's range on its axis. -/
theorem mem_blk (t : Fin cfg0.N) (i : S16384x256.Idx) :
    i ∈ ((cfg0.win 10).blk t).view.set ↔ ∀ a : Fin 2, win0_10.index t a * S512x256.size a ≤ (i a).val
      ∧ (i a).val < win0_10.index t a * S512x256.size a + S512x256.size a := by
  show i ∈ ((View.whole main_v26).slice (win0_10.rect t)).set ↔ _
  rw [View.set_slice_whole, Rect.mem_set_unit]
  exact Iff.rfl

/-- Row `r` of the result lies in the block of point `r / 512`, which writes back. -/
theorem cover (i : S16384x256.Idx) :
    ∃ t : Fin cfg0.N, (cfg0.win 10).flush t = true ∧ i ∈ ((cfg0.win 10).blk t).view.set := by
  have hi0 : (i 0).val < 16384 := (i 0).isLt
  have hi1 : (i 1).val < 256 := (i 1).isLt
  let t : Fin cfg0.N := ⟨(i 0).val / 512, by rw [show cfg0.N = 32 from N_0]; omega⟩
  obtain ⟨e0, e1⟩ := idx_w10 t
  have htv : t.val = (i 0).val / 512 := rfl
  refine ⟨t, flush0_10 t, ?_⟩
  rw [mem_blk]
  intro a
  match a with
  | ⟨0, _⟩ => show win0_10.index t (0 : Fin 2) * 512 ≤ (i 0).val ∧ (i 0).val < win0_10.index t (0 : Fin 2) * 512 + 512; omega
  | ⟨1, _⟩ => show win0_10.index t (1 : Fin 2) * 256 ≤ (i 1).val ∧ (i 1).val < win0_10.index t (1 : Fin 2) * 256 + 256; omega

/-- THE RESULT ARRAY after the run is the layer applied to every row of the launched input. -/
theorem final (c : Dev nD) :
    (dats m 0 c).arrAt 10 cfg0.N = whole (params m c) (m ((c : Thread nD τ).loc main_arg0)) :=
  (dats m 0 c).arrAt_eq_of_cover 10 _ (fun t _ => flushed_eq m c t) cover

/-! ## The run, read -/

/-- Every weakly fair execution of the idealized kernel program ends with the result array at the layer of every row
    of the launched input, and with every argument array as launched. -/
theorem run : θ_run defs (onTc (τ := τ) (main (F := Ideal))) ⟨m, fun _ => 0, ρ⟩ fun r => ∀ c : Dev nD,
      r.2.mem ((c : Thread nD τ).loc main_v26) = whole (params m c) (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)
      ∧ r.2.mem ((c : Thread nD τ).loc main_arg26) = m ((c : Thread nD τ).loc main_arg26)
      ∧ r.2.mem ((c : Thread nD τ).loc main_arg27) = m ((c : Thread nD τ).loc main_arg27) :=
  (θ_run defs _ _).mono (fun r h c => ⟨((h c).1 10).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).2 main_arg25 (Pipeline.mem_restRefs_of main_arg25 (by decide) (by decide))).trans (V_main_arg25 m c),
      ((h c).2 main_arg26 (Pipeline.mem_restRefs_of main_arg26 (by decide) (by decide))).trans (V_main_arg26 m c),
      ((h c).2 main_arg27 (Pipeline.mem_restRefs_of main_arg27 (by decide) (by decide))).trans (V_main_arg27 m c)⟩)
    (run_main m ρ)

end Cert.KernelIdeal.Whole

end
-- ==== Proof.RefHighway.lean ====
/-
  The reference program computes the layer row by row.

  Read one operation at a time at an index `(p, j)`: the shifted magnitudes, the five products of the magnitudes with
  a transposed weight, the first state, the three products of the state with a transposed weight, the biases spread
  down the rows, the gates, the candidate, the highway mix, and the last product. The reference groups a gate's
  pre-activation as  x-part + (state-part + bias)  and the mix as  (1 - g) · h + z · s ; the layer's function
  (`Cert.Highway`) groups them  (x-part + state-part) + bias  and  z · s + (1 - g) · h : addition of extended reals is
  associative and commutative, and nothing else is used.
-/
import proofs.«149896_j81389630259799_2_alg».proof.Proof.Gen.ReferenceIdeal.Read
import proofs.«149896_j81389630259799_2_alg».proof.Proof.Highway
import Idealize.ShloMosaic.Lib.ValueIdx
import Idealize.ShloMosaic.Lib.Pipeline.Value
import Idealize.ShloMosaic.PureOps.Ideal.Laws

noncomputable section

namespace Cert.ReferenceIdeal.RefHighway

open Cert.ReferenceIdeal Cert.ReferenceIdeal.Gen Cert.ReferenceIdeal.Read Idealize.ShloMosaic Idealize.ShloMosaic.ValueIdx Cert.Highway

/-- Two indices of a matrix with the same two coordinates are equal. -/
local macro "idx2" : tactic => `(tactic| (funext a; match a with | ⟨0, _⟩ => rfl | ⟨1, _⟩ => rfl))
/-- Two indices of a vector with the same coordinate are equal. -/
local macro "idx1" : tactic => `(tactic| (funext a; match a with | ⟨0, _⟩ => rfl))

/-- Row `p` of the input. -/
abbrev row (x0 : (⟨S16384x256, .f32⟩ : BufTy).Contents (Elt Ideal)) (p : Fin 16384) : Fin 256 → EReal := fun k => x0 (ix2 p k)

/-- The shifted magnitudes. -/
theorem ref_mag (x0 : (⟨S16384x256, .f32⟩ : BufTy).Contents (Elt Ideal)) (p : Fin 16384) (k : Fin 256) :
    val_main_v2 (F := Ideal) x0 (ix2 p k) = mag (row x0 p) k := by
  rw [val_main_v2_apply, val_main_v0_apply, val_main_v1_apply, val_main_cst_apply]
  rfl

/-- The magnitudes times a transposed 1024 × 256 weight: entry `(p, j)` sums over the shared 256 columns. -/
theorem ref_xdot (x0 : (⟨S16384x256, .f32⟩ : BufTy).Contents (Elt Ideal)) (w : (⟨S1024x256, .f32⟩ : BufTy).Contents (Elt Ideal)) (p : Fin 16384) (j : Fin 1024) :
    val_main_v4 (F := Ideal) x0 w (ix2 p j) = ∑ k : Fin 256, mag (row x0 p) k * w (ix2 j k) := by
  rw [val_main_v4_apply]
  refine Finset.sum_congr rfl fun k _ => ?_
  rw [show lidx_main_v4 (ix2 p j) k = ix2 p k from by idx2, ref_mag, val_main_v3_apply,
    show idx_main_v3 (ridx_main_v4 (ix2 p j) k) = ix2 j k from by idx2]

/-- A bias vector spread down the rows. -/
theorem ref_bias (b : (⟨S1024, .f32⟩ : BufTy).Contents (Elt Ideal)) (p : Fin 16384) (j : Fin 1024) :
    val_main_v6 (F := Ideal) b (ix2 p j) = b (ix1 j) := by
  rw [val_main_v6_apply, val_main_v5_apply, show idx_main_v5 (idx_main_v6 (ix2 p j)) = ix1 j from by idx1]

/-- The first state. -/
theorem ref_state (x0 : (⟨S16384x256, .f32⟩ : BufTy).Contents (Elt Ideal)) (x1 : (⟨S1024x256, .f32⟩ : BufTy).Contents (Elt Ideal)) (x2 : (⟨S1024, .f32⟩ : BufTy).Contents (Elt Ideal)) (p : Fin 16384) (j : Fin 1024) :
    val_main_v8 (F := Ideal) x0 x1 x2 (ix2 p j) = state x1 x2 (row x0 p) j := by
  rw [val_main_v8_apply, val_main_v7_apply, ref_xdot, ref_bias]
  rfl

/-- The first state times a transposed 1024 × 1024 weight. -/
theorem ref_sdot (x0 : (⟨S16384x256, .f32⟩ : BufTy).Contents (Elt Ideal)) (x1 : (⟨S1024x256, .f32⟩ : BufTy).Contents (Elt Ideal)) (x2 : (⟨S1024, .f32⟩ : BufTy).Contents (Elt Ideal)) (w : (⟨S1024x1024, .f32⟩ : BufTy).Contents (Elt Ideal))
    (p : Fin 16384) (j : Fin 1024) :
    val_main_v12 (F := Ideal) x0 x1 x2 w (ix2 p j) = ∑ l : Fin 1024, state x1 x2 (row x0 p) l * w (ix2 j l) := by
  rw [val_main_v12_apply]
  refine Finset.sum_congr rfl fun l _ => ?_
  rw [show lidx_main_v12 (ix2 p j) l = ix2 p l from by idx2, ref_state, val_main_v11_apply,
    show idx_main_v11 (ridx_main_v12 (ix2 p j) l) = ix2 j l from by idx2]

/-- A gate on the first state (the three gates are one function of their weights). -/
theorem ref_gate (x0 : (⟨S16384x256, .f32⟩ : BufTy).Contents (Elt Ideal)) (x1 : (⟨S1024x256, .f32⟩ : BufTy).Contents (Elt Ideal)) (x2 : (⟨S1024, .f32⟩ : BufTy).Contents (Elt Ideal)) (u : (⟨S1024x256, .f32⟩ : BufTy).Contents (Elt Ideal))
    (w : (⟨S1024x1024, .f32⟩ : BufTy).Contents (Elt Ideal)) (b : (⟨S1024, .f32⟩ : BufTy).Contents (Elt Ideal)) (p : Fin 16384) (j : Fin 1024) :
    val_main_v17 (F := Ideal) x0 x1 x2 u w b (ix2 p j) = gate u w b (row x0 p) (state x1 x2 (row x0 p)) j := by
  rw [val_main_v17_apply, val_main_v16_apply, val_main_v15_apply,
    show val_main_v10 (F := Ideal) x0 u = val_main_v4 (F := Ideal) x0 u from rfl, ref_xdot, ref_sdot,
    show val_main_v14 (F := Ideal) b = val_main_v6 (F := Ideal) b from rfl, ref_bias]
  unfold gate
  rw [add_assoc]
  rfl

/-- The candidate: the gate on the first state times the third gate. -/
theorem ref_cand (x0 : (⟨S16384x256, .f32⟩ : BufTy).Contents (Elt Ideal)) (x1 : (⟨S1024x256, .f32⟩ : BufTy).Contents (Elt Ideal)) (x2 : (⟨S1024, .f32⟩ : BufTy).Contents (Elt Ideal)) (x9 : (⟨S1024x256, .f32⟩ : BufTy).Contents (Elt Ideal))
    (x10 : (⟨S1024x1024, .f32⟩ : BufTy).Contents (Elt Ideal)) (x11 : (⟨S1024, .f32⟩ : BufTy).Contents (Elt Ideal)) (x12 : (⟨S1024x256, .f32⟩ : BufTy).Contents (Elt Ideal)) (x13 : (⟨S1024x1024, .f32⟩ : BufTy).Contents (Elt Ideal)) (x14 : (⟨S1024, .f32⟩ : BufTy).Contents (Elt Ideal))
    (p : Fin 16384) (j : Fin 1024) :
    val_main_v45 (F := Ideal) x0 x1 x2 x9 x10 x11 x12 x13 x14 (ix2 p j)
      = gate x12 x13 x14 (row x0 p)
          (fun l => state x1 x2 (row x0 p) l * gate x9 x10 x11 (row x0 p) (state x1 x2 (row x0 p)) l) j := by
  rw [val_main_v45_apply, val_main_v44_apply, val_main_v43_apply,
    show val_main_v37 (F := Ideal) x0 x12 = val_main_v4 (F := Ideal) x0 x12 from rfl, ref_xdot,
    show val_main_v42 (F := Ideal) x14 = val_main_v6 (F := Ideal) x14 from rfl, ref_bias, val_main_v40_apply]
  have hs : ∀ l : Fin 1024,
      (val_main_v38 (F := Ideal) x0 x1 x2 x9 x10 x11) (lidx_main_v40 (ix2 p j) l) * (val_main_v39 (F := Ideal) x13) (ridx_main_v40 (ix2 p j) l)
        = (state x1 x2 (row x0 p) l * gate x9 x10 x11 (row x0 p) (state x1 x2 (row x0 p)) l) * x13 (ix2 j l) := by
    intro l
    rw [show lidx_main_v40 (ix2 p j) l = ix2 p l from by idx2, val_main_v38_apply, ref_state,
      show val_main_v35 (F := Ideal) x0 x1 x2 x9 x10 x11 = val_main_v17 (F := Ideal) x0 x1 x2 x9 x10 x11 from rfl, ref_gate,
      val_main_v39_apply, show idx_main_v39 (ridx_main_v40 (ix2 p j) l) = ix2 j l from by idx2]
    rfl
  rw [Finset.sum_congr rfl fun l _ => hs l]
  unfold gate
  rw [add_assoc]
  rfl

/-- The highway mix. -/
theorem ref_mixed (x0 : (⟨S16384x256, .f32⟩ : BufTy).Contents (Elt Ideal)) (P : Params) (p : Fin 16384) (j : Fin 1024) :
    val_main_v50 (F := Ideal) x0 P.w0 P.b0 P.ug P.wg P.bg P.uz P.wz P.bz P.ur P.wr P.br P.uh P.wh P.bh (ix2 p j)
      = mixed P (row x0 p) j := by
  rw [val_main_v50_apply, val_main_v48_apply, val_main_v47_apply, val_main_v46_apply, val_main_cst_0_apply,
    val_main_v49_apply, ref_gate, ref_cand, ref_state,
    show val_main_v26 (F := Ideal) x0 P.w0 P.b0 P.uz P.wz P.bz = val_main_v17 (F := Ideal) x0 P.w0 P.b0 P.uz P.wz P.bz from rfl, ref_gate]
  unfold mixed
  rw [add_comm]
  rfl

/-- THE REFERENCE'S RESULT at `(p, q)` is the layer's output row of row `p` of the input, at `q`. -/
theorem ref_out (x0 : (⟨S16384x256, .f32⟩ : BufTy).Contents (Elt Ideal)) (P : Params) (p : Fin 16384) (q : Fin 256) :
    val_main_v52 (F := Ideal) x0 P.w0 P.b0 P.ug P.wg P.bg P.uz P.wz P.bz P.ur P.wr P.br P.uh P.wh P.bh P.w4 (ix2 p q)
      = out P (row x0 p) q := by
  rw [val_main_v52_apply]
  unfold out
  refine Finset.sum_congr rfl fun j _ => ?_
  rw [show lidx_main_v52 (ix2 p q) j = ix2 p j from by idx2, ref_mixed, val_main_v51_apply,
    show idx_main_v51 (ridx_main_v52 (ix2 p q) j) = ix2 q j from by idx2]

end Cert.ReferenceIdeal.RefHighway

end
-- ==== Proof.lean ====
/-
  A fused, batch-tiled highway layer against its plain form, over the extended reals.

  Both programs take an input of 16384 rows of 256 entries and fifteen weights, and compute for every row
      a = |x| + c,   s = tanh (a W0ᵀ + b0),
      g, z, r = tanh (a Uᵀ + s Wᵀ + b)  for the three gates' weights,   h = tanh (a Uhᵀ + (s · r) Whᵀ + bh),
      y = (z · s + (1 - g) · h) W4ᵀ,
  with `c` the same single-precision literal on both sides. The kernel re-lays the weights on the host (transposes
  them, sets the three gates' weights side by side and their biases end to end), cuts the rows into 32 blocks of 512,
  computes the three gates as the three column bands of one product, and sums a gate's pre-activation as
  (a Uᵀ + s Wᵀ) + b; the reference works on all rows at once, gate by gate, summing a Uᵀ + (s Wᵀ + b) and mixing as
  (1 - g) · h + z · s. At the extended reals a change of float format is the identity and a product into a zero
  accumulator is the plain sum, so each side is the function `Cert.Highway.whole` of the launched arrays: the two
  differ by the associativity and commutativity of addition only, which hold at the infinities too, so the
  finiteness of the inputs is never used.

  The kernel program's frame (at the bit level and at the extended reals) is its region's run read at the argument
  arrays; the reference's is its run with the result dropped; the idealized kernel program is the printed one read at
  the extended reals with no rewrite recorded, so there is nothing to preserve.
-/
import proofs.«149896_j81389630259799_2_alg».proof.Defs
import proofs.«149896_j81389630259799_2_alg».proof.Proof.Gen.Kernel
import proofs.«149896_j81389630259799_2_alg».proof.Proof.Gen.KernelIdeal
import proofs.«149896_j81389630259799_2_alg».proof.Proof.Gen.ReferenceIdeal
import proofs.«149896_j81389630259799_2_alg».proof.Proof.Gen.Pre_finite_inputs
import proofs.«149896_j81389630259799_2_alg».proof.Proof.KernelFrame
import proofs.«149896_j81389630259799_2_alg».proof.Proof.KernelIdealFrame
import proofs.«149896_j81389630259799_2_alg».proof.Proof.KernelHighway
import proofs.«149896_j81389630259799_2_alg».proof.Proof.RefHighway
import Idealize.ShloMosaic.Adequacy
import Idealize.ShloMosaic.Init

noncomputable section

namespace Cert.Proof

open Idealize.ShloMosaic Idealize.ShloMosaic.ValueIdx Idealize.SL.Sem

/-- The kernel program as printed runs to the end and leaves its argument arrays as launched. -/
theorem frame_kernel : Cert.frame_Kernel := fun m ρ _ => Cert.Kernel.Frm.frame m ρ

/-- So does its idealization. -/
theorem frame_kernelIdeal : Cert.frame_KernelIdeal := fun m ρ _ => Cert.KernelIdeal.Frm.frame m ρ

/-- The reference writes no argument array: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No rewrite separates the kernel program from its idealization. -/
theorem preserves : Cert.preserves_Kernel_KernelIdeal := trivial

/-- From memories that agree on the arguments, both idealized programs end with the layer of every input row. -/
theorem algebraic : Cert.algebraic_KernelIdeal_ReferenceIdeal := by
  intro m ρ m' ρ' _ hagree
  refine ⟨fun c => Cert.Highway.whole (Cert.KernelIdeal.Operands.params m c)
      (m ((c.tc : Thread Cert.KernelIdeal.nD Cert.KernelIdeal.τ).loc Cert.KernelIdeal.main_arg0)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v52_eq]
  obtain ⟨h0, h1, h2, h3, h4, h5, h6, h7, h8, h9, h10, h11, h12, h13, h14, h15, h16, h17, h18, h19, h20, h21, h22, h23, h24, h25, h26, h27⟩ := hagree c
  rw [h0, h1, h2, h3, h4, h5, h6, h7, h8, h9, h10, h11, h12, h13, h14, h27]
  funext i
  obtain ⟨p, q, rfl⟩ : ∃ (p : Fin 16384) (q : Fin 256), i = ix2 p q := ⟨i 0, i 1, eq_ix2 i⟩
  exact Cert.ReferenceIdeal.RefHighway.ref_out _ (Cert.KernelIdeal.Operands.params m c) p q

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
